-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x272 : Shape := ⟨2, ![32768, 272]⟩
abbrev S32768x1104 : Shape := ⟨2, ![32768, 1104]⟩
abbrev S32768x64 : Shape := ⟨2, ![32768, 64]⟩
abbrev S1536x80 : Shape := ⟨2, ![1536, 80]⟩
abbrev S1536 : Shape := ⟨1, ![1536]⟩
abbrev S1536x512 : Shape := ⟨2, ![1536, 512]⟩
abbrev S768x384 : Shape := ⟨2, ![768, 384]⟩
abbrev S768 : Shape := ⟨1, ![768]⟩
abbrev S768x256 : Shape := ⟨2, ![768, 256]⟩
abbrev S128x256 : Shape := ⟨2, ![128, 256]⟩
abbrev S128 : Shape := ⟨1, ![128]⟩
abbrev S128x512 : Shape := ⟨2, ![128, 512]⟩
abbrev S_ : Shape := ⟨0, ![]⟩

class Facts : Prop where
  bcast_S_S32768x272 : S_.BroadcastsInDim S32768x272 (![] : Fin 0 → Fin S32768x272.rank)
  reducesTo_S32768x272_S_d0_1 : S32768x272.ReducesTo [0, 1] S_
  h_S_ : 0 < S_.numel
  bcast_S_S32768x1104 : S_.BroadcastsInDim S32768x1104 (![] : Fin 0 → Fin S32768x1104.rank)
  reducesTo_S32768x1104_S_d0_1 : S32768x1104.ReducesTo [0, 1] S_
  bcast_S_S32768x64 : S_.BroadcastsInDim S32768x64 (![] : Fin 0 → Fin S32768x64.rank)
  reducesTo_S32768x64_S_d0_1 : S32768x64.ReducesTo [0, 1] S_
  bcast_S_S1536x80 : S_.BroadcastsInDim S1536x80 (![] : Fin 0 → Fin S1536x80.rank)
  reducesTo_S1536x80_S_d0_1 : S1536x80.ReducesTo [0, 1] S_
  bcast_S_S1536 : S_.BroadcastsInDim S1536 (![] : Fin 0 → Fin S1536.rank)
  reducesTo_S1536_S_d0 : S1536.ReducesTo [0] S_
  bcast_S_S1536x512 : S_.BroadcastsInDim S1536x512 (![] : Fin 0 → Fin S1536x512.rank)
  reducesTo_S1536x512_S_d0_1 : S1536x512.ReducesTo [0, 1] S_
  bcast_S_S768x384 : S_.BroadcastsInDim S768x384 (![] : Fin 0 → Fin S768x384.rank)
  reducesTo_S768x384_S_d0_1 : S768x384.ReducesTo [0, 1] S_
  bcast_S_S768 : S_.BroadcastsInDim S768 (![] : Fin 0 → Fin S768.rank)
  reducesTo_S768_S_d0 : S768.ReducesTo [0] S_
  bcast_S_S768x256 : S_.BroadcastsInDim S768x256 (![] : Fin 0 → Fin S768x256.rank)
  reducesTo_S768x256_S_d0_1 : S768x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128x256 .f32) (main_arg12 : FVec F S128 .f32) (main_arg13 : FVec F S128x512 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x512 .f32 := Host.absf main_arg13
  let main_cst_24 : FVec F S_ .f32 := constant S_ .f32 0x7F800000#32
  let main_v65 : FVec F S128x512 .f32 := broadcastInDim S128x512 ![] bcast_S_S128x512 main_cst_24
  let main_v66 : IVec S128x512 1 := cmpf .olt main_v64 main_v65
  let main_c_25 : IVec S_ 1 := constantI S_ 1 1#1
  let main_v67 : IVec S_ 1 := (fun x v => Host.reduce IntOp.andi x v reducesTo_S128x512_S_d0_1 h_S_) main_v66 main_c_25
  fn_part4 (F := F) main_v63 main_v67

def fn_part2 {F : FTy → Type} [FloatOps F] (main_arg7 : FVec F S768x384 .f32) (main_arg8 : FVec F S768 .f32) (main_arg9 : FVec F S768x256 .f32) (main_arg10 : FVec F S768 .f32) (main_arg11 : FVec F S128x256 .f32) (main_arg12 : FVec F S128 .f32) (main_arg13 : FVec F S128x512 .f32) (main_v33 : IVec S_ 1) : IVec S_ 1 :=
  let main_v34 : FVec F S768x384 .f32 := Host.absf main_arg7
  let main_cst_12 : FVec F S_ .f32 := constant S_ .f32 0x7F800000#32
  let main_v35 : FVec F S768x384 .f32 := broadcastInDim S768x384 ![] bcast_S_S768x384 main_cst_12
  let main_v36 : IVec S768x384 1 := cmpf .olt main_v34 main_v35
  let main_c_13 : IVec S_ 1 := constantI S_ 1 1#1
  let main_v37 : IVec S_ 1 := (fun x v => Host.reduce IntOp.andi x v reducesTo_S768x384_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768x256 .f32 := Host.absf main_arg9
  let main_cst_16 : FVec F S_ .f32 := constant S_ .f32 0x7F800000#32
  let main_v45 : FVec F S768x256 .f32 := broadcastInDim S768x256 ![] bcast_S_S768x256 main_cst_16
  let main_v46 : IVec S768x256 1 := cmpf .olt main_v44 main_v45
  let main_c_17 : IVec S_ 1 := constantI S_ 1 1#1
  let main_v47 : IVec S_ 1 := (fun x v => Host.reduce IntOp.andi x v reducesTo_S768x256_S_d0_1 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_arg12 main_arg13 main_v48 main_v49 main_v50

def fn_part1 {F : FTy → Type} [FloatOps F] (main_arg4 : FVec F S1536 .f32) (main_arg5 : FVec F S1536x512 .f32) (main_arg6 : FVec F S1536 .f32) (main_arg7 : FVec F S768x384 .f32) (main_arg8 : FVec F S768 .f32) (main_arg9 : FVec F S768x256 .f32) (main_arg10 : FVec F S768 .f32) (main_arg11 : FVec F S128x256 .f32) (main_arg12 : FVec F S128 .f32) (main_arg13 : FVec F S128x512 .f32) (main_v13 : IVec S_ 1) (main_v16 : IVec S1536x80 1) : IVec S_ 1 :=
  let main_c_5 : IVec S_ 1 := constantI S_ 1 1#1
  let main_v17 : IVec S_ 1 := (fun x v => Host.reduce IntOp.andi x v reducesTo_S1536x80_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536x512 .f32 := Host.absf main_arg5
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x272 .f32) (main_arg1 : FVec F S32768x1104 .f32) (main_arg2 : FVec F S32768x64 .f32) (main_arg3 : FVec F S1536x80 .f32) (main_arg4 : FVec F S1536 .f32) (main_arg5 : FVec F S1536x512 .f32) (main_arg6 : FVec F S1536 .f32) (main_arg7 : FVec F S768x384 .f32) (main_arg8 : FVec F S768 .f32) (main_arg9 : FVec F S768x256 .f32) (main_arg10 : FVec F S768 .f32) (main_arg11 : FVec F S128x256 .f32) (main_arg12 : FVec F S128 .f32) (main_arg13 : FVec F S128x512 .f32) : IVec S_ 1 :=
  let main_v0 : FVec F S32768x272 .f32 := Host.absf main_arg0
  let main_cst : FVec F S_ .f32 := constant S_ .f32 0x7F800000#32
  let main_v1 : FVec F S32768x272 .f32 := broadcastInDim S32768x272 ![] bcast_S_S32768x272 main_cst
  let main_v2 : IVec S32768x272 1 := cmpf .olt main_v0 main_v1
  let main_c : IVec S_ 1 := constantI S_ 1 1#1
  let main_v3 : IVec S_ 1 := (fun x v => Host.reduce IntOp.andi x v reducesTo_S32768x272_S_d0_1 h_S_) main_v2 main_c
  let main_v4 : FVec F S32768x1104 .f32 := Host.absf main_arg1
  let main_cst_0 : FVec F S_ .f32 := constant S_ .f32 0x7F800000#32
  let main_v5 : FVec F S32768x1104 .f32 := broadcastInDim S32768x1104 ![] bcast_S_S32768x1104 main_cst_0
  let main_v6 : IVec S32768x1104 1 := cmpf .olt main_v4 main_v5
  let main_c_1 : IVec S_ 1 := constantI S_ 1 1#1
  let main_v7 : IVec S_ 1 := (fun x v => Host.reduce IntOp.andi x v reducesTo_S32768x1104_S_d0_1 h_S_) main_v6 main_c_1
  let main_v8 : IVec S_ 1 := andi main_v3 main_v7
  let main_v9 : FVec F S32768x64 .f32 := Host.absf main_arg2
  let main_cst_2 : FVec F S_ .f32 := constant S_ .f32 0x7F800000#32
  let main_v10 : FVec F S32768x64 .f32 := broadcastInDim S32768x64 ![] bcast_S_S32768x64 main_cst_2
  let main_v11 : IVec S32768x64 1 := cmpf .olt main_v9 main_v10
  let main_c_3 : IVec S_ 1 := constantI S_ 1 1#1
  let main_v12 : IVec S_ 1 := (fun x v => Host.reduce IntOp.andi x v reducesTo_S32768x64_S_d0_1 h_S_) main_v11 main_c_3
  let main_v13 : IVec S_ 1 := andi main_v8 main_v12
  let main_v14 : FVec F S1536x80 .f32 := Host.absf main_arg3
  let main_cst_4 : FVec F S_ .f32 := constant S_ .f32 0x7F800000#32
  let main_v15 : FVec F S1536x80 .f32 := broadcastInDim S1536x80 ![] bcast_S_S1536x80 main_cst_4
  let main_v16 : IVec S1536x80 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x272 : Shape := ⟨2, ![32768, 272]⟩
abbrev S32768x1104 : Shape := ⟨2, ![32768, 1104]⟩
abbrev S32768x64 : Shape := ⟨2, ![32768, 64]⟩
abbrev S1536x80 : Shape := ⟨2, ![1536, 80]⟩
abbrev S1536 : Shape := ⟨1, ![1536]⟩
abbrev S1536x512 : Shape := ⟨2, ![1536, 512]⟩
abbrev S768x384 : Shape := ⟨2, ![768, 384]⟩
abbrev S768 : Shape := ⟨1, ![768]⟩
abbrev S768x256 : Shape := ⟨2, ![768, 256]⟩
abbrev S128x256 : Shape := ⟨2, ![128, 256]⟩
abbrev S128 : Shape := ⟨1, ![128]⟩
abbrev S128x512 : Shape := ⟨2, ![128, 512]⟩
abbrev S80x1536 : Shape := ⟨2, ![80, 1536]⟩
abbrev S1024x512 : Shape := ⟨2, ![1024, 512]⟩
abbrev S512x1024 : Shape := ⟨2, ![512, 1024]⟩
abbrev S512x512 : Shape := ⟨2, ![512, 512]⟩
abbrev S1x1536 : Shape := ⟨2, ![1, 1536]⟩
abbrev S1024 : Shape := ⟨1, ![1024]⟩
abbrev S1x1024 : Shape := ⟨2, ![1, 1024]⟩
abbrev S512 : Shape := ⟨1, ![512]⟩
abbrev S1x512 : Shape := ⟨2, ![1, 512]⟩
abbrev S384x768 : Shape := ⟨2, ![384, 768]⟩
abbrev S512x256 : Shape := ⟨2, ![512, 256]⟩
abbrev S256x512 : Shape := ⟨2, ![256, 512]⟩
abbrev S256x256 : Shape := ⟨2, ![256, 256]⟩
abbrev S1x768 : Shape := ⟨2, ![1, 768]⟩
abbrev S256 : Shape := ⟨1, ![256]⟩
abbrev S1x256 : Shape := ⟨2, ![1, 256]⟩
abbrev S256x128 : Shape := ⟨2, ![256, 128]⟩
abbrev S1x128 : Shape := ⟨2, ![1, 128]⟩
abbrev S_ : Shape := ⟨0, ![]⟩
abbrev S128x1 : Shape := ⟨2, ![128, 1]⟩
abbrev S512x128 : Shape := ⟨2, ![512, 128]⟩
abbrev S512x272 : Shape := ⟨2, ![512, 272]⟩
abbrev S512x1104 : Shape := ⟨2, ![512, 1104]⟩
abbrev S512x64 : Shape := ⟨2, ![512, 64]⟩
abbrev S512x16 : Shape := ⟨2, ![512, 16]⟩
abbrev S512x384 : Shape := ⟨2, ![512, 384]⟩
abbrev S512x768 : Shape := ⟨2, ![512, 768]⟩
abbrev S512x80 : Shape := ⟨2, ![512, 80]⟩
abbrev S512x1536 : Shape := ⟨2, ![512, 1536]⟩

abbrev nBuf : Space → Nat
  | .hbm => 56
  | .vmem => 23
  | .smem => 0
  | _ => 0

abbrev bufTy : (tb : Table) → Fin (tcTables nBuf tb) → BufTy
  | .hbm, ⟨0, _⟩ => ⟨S32768x272, .f32⟩
  | .hbm, ⟨1, _⟩ => ⟨S32768x1104, .f32⟩
  | .hbm, ⟨2, _⟩ => ⟨S32768x64, .f32⟩
  | .hbm, ⟨3, _⟩ => ⟨S1536x80, .f32⟩
  | .hbm, ⟨4, _⟩ => ⟨S1536, .f32⟩
  | .hbm, ⟨5, _⟩ => ⟨S1536x512, .f32⟩
  | .hbm, ⟨6, _⟩ => ⟨S1536, .f32⟩
  | .hbm, ⟨7, _⟩ => ⟨S768x384, .f32⟩
  | .hbm, ⟨8, _⟩ => ⟨S768, .f32⟩
  | .hbm, ⟨9, _⟩ => ⟨S768x256, .f32⟩
  | .hbm, ⟨10, _⟩ => ⟨S768, .f32⟩
  | .hbm, ⟨11, _⟩ => ⟨S128x256, .f32⟩
  | .hbm, ⟨12, _⟩ => ⟨S128, .f32⟩
  | .hbm, ⟨13, _⟩ => ⟨S128x512, .f32⟩
  | .hbm, ⟨14, _⟩ => ⟨S80x1536, .f32⟩
  | .hbm, ⟨15, _⟩ => ⟨S80x1536, .bf16⟩
  | .hbm, ⟨16, _⟩ => ⟨S1024x512, .f32⟩
  | .hbm, ⟨17, _⟩ => ⟨S512x1024, .f32⟩
  | .hbm, ⟨18, _⟩ => ⟨S512x1024, .bf16⟩
  | .hbm, ⟨19, _⟩ => ⟨S512x512, .f32⟩
  | .hbm, ⟨20, _⟩ => ⟨S512x512, .f32⟩
  | .hbm, ⟨21, _⟩ => ⟨S512x512, .bf16⟩
  | .hbm, ⟨22, _⟩ => ⟨S1x1536, .f32⟩
  | .hbm, ⟨23, _⟩ => ⟨S1024, .f32⟩
  | .hbm, ⟨24, _⟩ => ⟨S1x1024, .f32⟩
  | .hbm, ⟨25, _⟩ => ⟨S512, .f32⟩
  | .hbm, ⟨26, _⟩ => ⟨S1x512, .f32⟩
  | .hbm, ⟨27, _⟩ => ⟨S384x768, .f32⟩
  | .hbm, ⟨28, _⟩ => ⟨S384x768, .bf16⟩
  | .hbm, ⟨29, _⟩ => ⟨S512x256, .f32⟩
  | .hbm, ⟨30, _⟩ => ⟨S256x512, .f32⟩
  | .hbm, ⟨31, _⟩ => ⟨S256x512, .bf16⟩
  | .hbm, ⟨32, _⟩ => ⟨S256x256, .f32⟩
  | .hbm, ⟨33, _⟩ => ⟨S256x256, .f32⟩
  | .hbm, ⟨34, _⟩ => ⟨S256x256, .bf16⟩
  | .hbm, ⟨35, _⟩ => ⟨S1x768, .f32⟩
  | .hbm, ⟨36, _⟩ => ⟨S512, .f32⟩
  | .hbm, ⟨37, _⟩ => ⟨S1x512, .f32⟩
  | .hbm, ⟨38, _⟩ => ⟨S256, .f32⟩
  | .hbm, ⟨39, _⟩ => ⟨S1x256, .f32⟩
  | .hbm, ⟨40, _⟩ => ⟨S256x128, .f32⟩
  | .hbm, ⟨41, _⟩ => ⟨S256x128, .bf16⟩
  | .hbm, ⟨42, _⟩ => ⟨S1x128, .f32⟩
  | .hbm, ⟨43, _⟩ => ⟨S128x512, .f32⟩
  | .hbm, ⟨44, _⟩ => ⟨S_, .f32⟩
  | .hbm, ⟨45, _⟩ => ⟨S128, .f32⟩
  | .hbm, ⟨46, _⟩ => ⟨S128x1, .f32⟩
  | .hbm, ⟨47, _⟩ => ⟨S128x1, .f32⟩
  | .hbm, ⟨48, _⟩ => ⟨S_, .f32⟩
  | .hbm, ⟨49, _⟩ => ⟨S128x1, .f32⟩
  | .hbm, ⟨50, _⟩ => ⟨S128x1, .f32⟩
  | .hbm, ⟨51, _⟩ => ⟨S128x512, .f32⟩
  | .hbm, ⟨52, _⟩ => ⟨S128x512, .f32⟩
  | .hbm, ⟨53, _⟩ => ⟨S512x128, .f32⟩
  | .hbm, ⟨54, _⟩ => ⟨S512x128, .bf16⟩
  | .hbm, ⟨55, _⟩ => ⟨S32768x1104, .f32⟩
  | .local _ .vmem, ⟨0, _⟩ => ⟨S512x272, .f32⟩
  | .local _ .vmem, ⟨1, _⟩ => ⟨S512x272, .f32⟩
  | .local _ .vmem, ⟨2, _⟩ => ⟨S512x1104, .f32⟩
  | .local _ .vmem, ⟨3, _⟩ => ⟨S512x1104, .f32⟩
  | .local _ .vmem, ⟨4, _⟩ => ⟨S512x64, .f32⟩
  | .local _ .vmem, ⟨5, _⟩ => ⟨S512x64, .f32⟩
  | .local _ .vmem, ⟨6, _⟩ => ⟨S80x1536, .bf16⟩
  | .local _ .vmem, ⟨7, _⟩ => ⟨S1x1536, .f32⟩
  | .local _ .vmem, ⟨8, _⟩ => ⟨S512x1024, .bf16⟩
  | .local _ .vmem, ⟨9, _⟩ => ⟨S1x1024, .f32⟩
  | .local _ .vmem, ⟨10, _⟩ => ⟨S512x512, .bf16⟩
  | .local _ .vmem, ⟨11, _⟩ => ⟨S1x512, .f32⟩
  | .local _ .vmem, ⟨12, _⟩ => ⟨S384x768, .bf16⟩
  | .local _ .vmem, ⟨13, _⟩ => ⟨S1x768, .f32⟩
  | .local _ .vmem, ⟨14, _⟩ => ⟨S256x512, .bf16⟩
  | .local _ .vmem, ⟨15, _⟩ => ⟨S1x512, .f32⟩
  | .local _ .vmem, ⟨16, _⟩ => ⟨S256x256, .bf16⟩
  | .local _ .vmem, ⟨17, _⟩ => ⟨S1x256, .f32⟩
  | .local _ .vmem, ⟨18, _⟩ => ⟨S256x128, .bf16⟩
  | .local _ .vmem, ⟨19, _⟩ => ⟨S1x128, .f32⟩
  | .local _ .vmem, ⟨20, _⟩ => ⟨S512x128, .bf16⟩
  | .local _ .vmem, ⟨21, _⟩ => ⟨S512x1104, .f32⟩
  | .local _ .vmem, ⟨22, _⟩ => ⟨S512x1104, .f32⟩
  | _, _ => ⟨S32768x272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_cst : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1104 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S80x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1104 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  transposes_S1536x80_S80x1536_1_0 : S1536x80.Transposes [1, 0] S80x1536
  bitsLt_bf16_f32 : FTy.bits .bf16 < FTy.bits .f32
  slices_S1536x512_S1024x512_0_0 : S1536x512.Slices ![0, 0] S1024x512
  transposes_S1024x512_S512x1024_1_0 : S1024x512.Transposes [1, 0] S512x1024
  slices_S1536x512_S512x512_1024_0 : S1536x512.Slices ![1024, 0] S512x512
  transposes_S512x512_S512x512_1_0 : S512x512.Transposes [1, 0] S512x512
  shapeCasts_S1536_S1x1536 : S1536.ShapeCasts S1x1536
  slices_S1536_S1024_0 : S1536.Slices ![0] S1024
  shapeCasts_S1024_S1x1024 : S1024.ShapeCasts S1x1024
  slices_S1536_S512_1024 : S1536.Slices ![1024] S512
  shapeCasts_S512_S1x512 : S512.ShapeCasts S1x512
  transposes_S768x384_S384x768_1_0 : S768x384.Transposes [1, 0] S384x768
  slices_S768x256_S512x256_0_0 : S768x256.Slices ![0, 0] S512x256
  transposes_S512x256_S256x512_1_0 : S512x256.Transposes [1, 0] S256x512
  slices_S768x256_S256x256_512_0 : S768x256.Slices ![512, 0] S256x256
  transposes_S256x256_S256x256_1_0 : S256x256.Transposes [1, 0] S256x256
  shapeCasts_S768_S1x768 : S768.ShapeCasts S1x768
  slices_S768_S512_0 : S768.Slices ![0] S512
  slices_S768_S256_512 : S768.Slices ![512] S256
  shapeCasts_S256_S1x256 : S256.ShapeCasts S1x256
  transposes_S128x256_S256x128_1_0 : S128x256.Transposes [1, 0] S256x128
  shapeCasts_S128_S1x128 : S128.ShapeCasts S1x128
  reducesTo_S128x512_S128_d1 : S128x512.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x512_0_1 : S128x1.BroadcastsInDim S128x512 (![0, 1] : Fin 2 → Fin S128x512.rank)
  transposes_S128x512_S512x128_1_0 : S128x512.Transposes [1, 0] S512x128
  inb_S512x272_S512x272_0_0 : ∀ a, (![0, 0] : Fin 2 → Nat) a + S512x272.size a ≤ S512x272.size a
  h_S512x272 : 0 < S512x272.numel
  inb_S512x1104_S512x1104_0_0 : ∀ a, (![0, 0] : Fin 2 → Nat) a + S512x1104.size a ≤ S512x1104.size a
  h_S512x1104 : 0 < S512x1104.numel
  inb_S512x64_S512x64_0_0 : ∀ a, (![0, 0] : Fin 2 → Nat) a + S512x64.size a ≤ S512x64.size a
  h_S512x64 : 0 < S512x64.numel
  slices_S512x272_o0_0_S512x256 : S512x272.Slices ![0, 0] S512x256
  slices_S512x272_o0_256_S512x16 : S512x272.Slices ![0, 256] S512x16
  slices_S512x1104_o0_0_S512x512 : S512x1104.Slices ![0, 0] S512x512
  slices_S512x1104_o0_512_S512x256 : S512x1104.Slices ![0, 512] S512x256
  slices_S512x1104_o0_976_S512x128 : S512x1104.Slices ![0, 976] S512x128
  concatenates_S512x256_S512x128_S512x384_d1 : Shape.Concatenates [S512x256, S512x128] S512x384 1
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x768_S512x768 : S1x768.Broadcasts S512x768
  slices_S512x768_o0_0_S512x256 : S512x768.Slices ![0, 0] S512x256
  slices_S512x768_o0_256_S512x256 : S512x768.Slices ![0, 256] S512x256
  slices_S512x768_o0_512_S512x256 : S512x768.Slices ![0, 512] S512x256
  broadcasts_S1x512_S512x512 : S1x512.Broadcasts S512x512
  slices_S512x512_o0_0_S512x256 : S512x512.Slices ![0, 0] S512x256
  slices_S512x512_o0_256_S512x256 : S512x512.Slices ![0, 256] S512x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S512x128_o0_0_S512x64 : S512x128.Slices ![0, 0] S512x64
  slices_S512x128_o0_64_S512x64 : S512x128.Slices ![0, 64] S512x64
  concatenates_S512x64_S512x16_S512x80_d1 : Shape.Concatenates [S512x64, S512x16] S512x80 1
  inb_S80x1536_S80x1536_0_0 : ∀ a, (![0, 0] : Fin 2 → Nat) a + S80x1536.size a ≤ S80x1536.size a
  h_S80x1536 : 0 < S80x1536.numel
  shapeCasts_S80x1536_S80x1536 : S80x1536.ShapeCasts S80x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  broadcasts_S1x1024_S512x1024 : S1x1024.Broadcasts S512x1024
  slices_S512x1024_o0_0_S512x512 : S512x1024.Slices ![0, 0] S512x512
  slices_S512x1024_o0_512_S512x512 : S512x1024.Slices ![0, 512] S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  concatenates_S512x512_S512x256_S512x64_S512x64_S512x80_S512x128_S512x1104_d1 : Shape.Concatenates [S512x512, S512x256, S512x64, S512x64, S512x80, S512x128] S512x1104 1
  dot_S512x384_S384x768_S512x768_1_0_0_1_n_n_wf : DotDims.WF S512x384 S384x768 S512x768 [1] [0] [0] [1] [] []
  dot_S512x256_S256x512_S512x512_1_0_0_1_n_n_wf : DotDims.WF S512x256 S256x512 S512x512 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  dot_S512x80_S80x1536_S512x1536_1_0_0_1_n_n_wf : DotDims.WF S512x80 S80x1536 S512x1536 [1] [0] [0] [1] [] []
  dot_S512x512_S512x1024_S512x1024_1_0_0_1_n_n_wf : DotDims.WF S512x512 S512x1024 S512x1024 [1] [0] [0] [1] [] []
  dot_S512x512_S512x512_S512x512_1_0_0_1_n_n_wf : DotDims.WF S512x512 S512x512 S512x512 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x272.size a ≤ S32768x272.size a
  hwx0_0 : ∀ i : grid0.Coords, EltTy.bits .f32 = 32 ∨ (Rect.block (s := S32768x272) S512x272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1104.size a ≤ S32768x1104.size a
  hwx0_1 : ∀ i : grid0.Coords, EltTy.bits .f32 = 32 ∨ (Rect.block (s := S32768x1104) S512x1104.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S32768x64.size a
  hwx0_2 : ∀ i : grid0.Coords, EltTy.bits .f32 = 32 ∨ (Rect.block (s := S32768x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x1536.size a ≤ S80x1536.size a
  hwx0_3 : ∀ i : grid0.Coords, EltTy.bits .bf16 = 32 ∨ (Rect.block (s := S80x1536) S80x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .bf16 = 32 ∨ (Rect.block (s := S512x1024) S512x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .bf16 = 32 ∨ (Rect.block (s := S512x512) S512x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384x768.size a ≤ S384x768.size a
  hwx0_9 : ∀ i : grid0.Coords, EltTy.bits .bf16 = 32 ∨ (Rect.block (s := S384x768) S384x768.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x768.size a ≤ S1x768.size a
  hwx0_10 : ∀ i : grid0.Coords, EltTy.bits .f32 = 32 ∨ (Rect.block (s := S1x768) S1x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S256x512.size a
  hwx0_11 : ∀ i : grid0.Coords, EltTy.bits .bf16 = 32 ∨ (Rect.block (s := S256x512) S256x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .bf16 = 32 ∨ (Rect.block (s := S256x128) S256x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x128.size a ≤ S512x128.size a
  hwx0_17 : ∀ i : grid0.Coords, EltTy.bits .bf16 = 32 ∨ (Rect.block (s := S512x128) S512x128.size (cc0_transform_17 i) (hinb0_17 i)).WholeWords (EltTy.packing .bf16)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S512x1104.size a ≤ S32768x1104.size a
  hwx0_18 : ∀ i : grid0.Coords, EltTy.bits .f32 = 32 ∨ (Rect.block (s := S32768x1104) S512x1104.size (cc0_transform_18 i) (hinb0_18 i)).WholeWords (EltTy.packing .f32)

variable [Facts₀]

def dot_S512x384_S384x768_S512x768_1_0_0_1_n_n : DotDims S512x384 S384x768 S512x768 where
  lhsContracting := [1]
  rhsContracting := [0]
  lhsNonContracting := [0]
  rhsNonContracting := [1]
  lhsBatch := []
  rhsBatch := []
  wf := dot_S512x384_S384x768_S512x768_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x80_S80x1536_S512x1536_1_0_0_1_n_n : DotDims S512x80 S80x1536 S512x1536 where
  lhsContracting := [1]
  rhsContracting := [0]
  lhsNonContracting := [0]
  rhsNonContracting := [1]
  lhsBatch := []
  rhsBatch := []
  wf := dot_S512x80_S80x1536_S512x1536_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S512x272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1104.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S80x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S384x768.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S256x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v25) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v27) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v28) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35) S512x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v36) S512x1104.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S32768x272 : Shape := ⟨2, ![32768, 272]⟩
abbrev S32768x1104 : Shape := ⟨2, ![32768, 1104]⟩
abbrev S32768x64 : Shape := ⟨2, ![32768, 64]⟩
abbrev S1536x80 : Shape := ⟨2, ![1536, 80]⟩
abbrev S1536 : Shape := ⟨1, ![1536]⟩
abbrev S1536x512 : Shape := ⟨2, ![1536, 512]⟩
abbrev S768x384 : Shape := ⟨2, ![768, 384]⟩
abbrev S768 : Shape := ⟨1, ![768]⟩
abbrev S768x256 : Shape := ⟨2, ![768, 256]⟩
abbrev S128x256 : Shape := ⟨2, ![128, 256]⟩
abbrev S128 : Shape := ⟨1, ![128]⟩
abbrev S128x512 : Shape := ⟨2, ![128, 512]⟩
abbrev S32768x512 : Shape := ⟨2, ![32768, 512]⟩
abbrev S32768x256 : Shape := ⟨2, ![32768, 256]⟩
abbrev S32768x80 : Shape := ⟨2, ![32768, 80]⟩
abbrev S32768x128 : Shape := ⟨2, ![32768, 128]⟩
abbrev S32768x16 : Shape := ⟨2, ![32768, 16]⟩
abbrev S32768x384 : Shape := ⟨2, ![32768, 384]⟩
abbrev S384x768 : Shape := ⟨2, ![384, 768]⟩
abbrev S32768x768 : Shape := ⟨2, ![32768, 768]⟩
abbrev S1x768 : Shape := ⟨2, ![1, 768]⟩
abbrev S512x256 : Shape := ⟨2, ![512, 256]⟩
abbrev S256x256 : Shape := ⟨2, ![256, 256]⟩
abbrev S512 : Shape := ⟨1, ![512]⟩
abbrev S256 : Shape := ⟨1, ![256]⟩
abbrev S256x512 : Shape := ⟨2, ![256, 512]⟩
abbrev S1x512 : Shape := ⟨2, ![1, 512]⟩
abbrev S_ : Shape := ⟨0, ![]⟩
abbrev S1x256 : Shape := ⟨2, ![1, 256]⟩
abbrev S256x128 : Shape := ⟨2, ![256, 128]⟩
abbrev S1x128 : Shape := ⟨2, ![1, 128]⟩
abbrev S80x1536 : Shape := ⟨2, ![80, 1536]⟩
abbrev S32768x1536 : Shape := ⟨2, ![32768, 1536]⟩
abbrev S1x1536 : Shape := ⟨2, ![1, 1536]⟩
abbrev S1024x512 : Shape := ⟨2, ![1024, 512]⟩
abbrev S512x512 : Shape := ⟨2, ![512, 512]⟩
abbrev S1024 : Shape := ⟨1, ![1024]⟩
abbrev S512x1024 : Shape := ⟨2, ![512, 1024]⟩
abbrev S32768x1024 : Shape := ⟨2, ![32768, 1024]⟩
abbrev S1x1024 : Shape := ⟨2, ![1, 1024]⟩
abbrev S128x1 : Shape := ⟨2, ![128, 1]⟩
abbrev S512x128 : Shape := ⟨2, ![512, 128]⟩

abbrev nBuf : Space → Nat
  | .hbm => 168
  | .vmem => 0
  | .smem => 0
  | _ => 0

abbrev hbmTy0_0 (i : Nat) : BufTy := match i % 128 with
  | 0 => ⟨S32768x272, .f32⟩
  | 1 => ⟨S32768x1104, .f32⟩
  | 2 => ⟨S32768x64, .f32⟩
  | 3 => ⟨S1536x80, .f32⟩
  | 4 => ⟨S1536, .f32⟩
  | 5 => ⟨S1536x512, .f32⟩
  | 6 => ⟨S1536, .f32⟩
  | 7 => ⟨S768x384, .f32⟩
  | 8 => ⟨S768, .f32⟩
  | 9 => ⟨S768x256, .f32⟩
  | 10 => ⟨S768, .f32⟩
  | 11 => ⟨S128x256, .f32⟩
  | 12 => ⟨S128, .f32⟩
  | 13 => ⟨S128x512, .f32⟩
  | 14 => ⟨S32768x512, .f32⟩
  | 15 => ⟨S32768x256, .f32⟩
  | 16 => ⟨S32768x64, .f32⟩
  | 17 => ⟨S32768x64, .f32⟩
  | 18 => ⟨S32768x80, .f32⟩
  | 19 => ⟨S32768x128, .f32⟩
  | 20 => ⟨S32768x256, .f32⟩
  | 21 => ⟨S32768x16, .f32⟩
  | 22 => ⟨S32768x384, .f32⟩
  | 23 => ⟨S384x768, .f32⟩
  | 24 => ⟨S32768x768, .f32⟩
  | 25 => ⟨S1x768, .f32⟩
  | 26 => ⟨S32768x768, .f32⟩
  | 27 => ⟨S32768x768, .f32⟩
  | 28 => ⟨S32768x256, .f32⟩
  | 29 => ⟨S32768x256, .f32⟩
  | 30 => ⟨S32768x256, .f32⟩
  | 31 => ⟨S512x256, .f32⟩
  | 32 => ⟨S256x256, .f32⟩
  | 33 => ⟨S512, .f32⟩
  | 34 => ⟨S256, .f32⟩
  | 35 => ⟨S256x512, .f32⟩
  | 36 => ⟨S32768x512, .f32⟩
  | 37 => ⟨S1x512, .f32⟩
  | 38 => ⟨S32768x512, .f32⟩
  | 39 => ⟨S32768x512, .f32⟩
  | 40 => ⟨S32768x256, .f32⟩
  | 41 => ⟨S32768x256, .f32⟩
  | 42 => ⟨S32768x256, .f32⟩
  | 43 => ⟨S32768x256, .f32⟩
  | 44 => ⟨S32768x256, .f32⟩
  | 45 => ⟨S_, .f32⟩
  | 46 => ⟨S32768x256, .f32⟩
  | 47 => ⟨S32768x256, .f32⟩
  | 48 => ⟨S_, .f32⟩
  | 49 => ⟨S32768x256, .f32⟩
  | 50 => ⟨S32768x256, .f32⟩
  | 51 => ⟨S32768x256, .f32⟩
  | 52 => ⟨S32768x256, .f32⟩
  | 53 => ⟨S32768x256, .f32⟩
  | 54 => ⟨S_, .f32⟩
  | 55 => ⟨S32768x256, .f32⟩
  | 56 => ⟨S32768x256, .f32⟩
  | 57 => ⟨S_, .f32⟩
  | 58 => ⟨S32768x256, .f32⟩
  | 59 => ⟨S32768x256, .f32⟩
  | 60 => ⟨S32768x256, .f32⟩
  | 61 => ⟨S256x256, .f32⟩
  | 62 => ⟨S32768x256, .f32⟩
  | 63 => ⟨S32768x256, .f32⟩
  | 64 => ⟨S1x256, .f32⟩
  | 65 => ⟨S32768x256, .f32⟩
  | 66 => ⟨S32768x256, .f32⟩
  | 67 => ⟨S32768x256, .f32⟩
  | 68 => ⟨S32768x256, .f32⟩
  | 69 => ⟨S_, .f32⟩
  | 70 => ⟨S32768x256, .f32⟩
  | 71 => ⟨S32768x256, .f32⟩
  | 72 => ⟨S32768x256, .f32⟩
  | 73 => ⟨S32768x256, .f32⟩
  | 74 => ⟨S_, .f32⟩
  | 75 => ⟨S_, .f32⟩
  | 76 => ⟨S_, .f32⟩
  | 77 => ⟨S32768x256, .f32⟩
  | 78 => ⟨S32768x256, .f32⟩
  | 79 => ⟨S_, .f32⟩
  | 80 => ⟨S32768x256, .f32⟩
  | 81 => ⟨S32768x256, .f32⟩
  | 82 => ⟨S256x128, .f32⟩
  | 83 => ⟨S32768x128, .f32⟩
  | 84 => ⟨S1x128, .f32⟩
  | 85 => ⟨S32768x128, .f32⟩
  | 86 => ⟨S32768x128, .f32⟩
  | 87 => ⟨S32768x64, .f32⟩
  | 88 => ⟨S32768x64, .f32⟩
  | 89 => ⟨S_, .f32⟩
  | 90 => ⟨S32768x64, .f32⟩
  | 91 => ⟨S32768x64, .f32⟩
  | 92 => ⟨S32768x64, .f32⟩
  | 93 => ⟨S32768x64, .f32⟩
  | 94 => ⟨S32768x64, .f32⟩
  | 95 => ⟨S32768x80, .f32⟩
  | 96 => ⟨S80x1536, .f32⟩
  | 97 => ⟨S32768x1536, .f32⟩
  | 98 => ⟨S1x1536, .f32⟩
  | 99 => ⟨S32768x1536, .f32⟩
  | 100 => ⟨S32768x1536, .f32⟩
  | 101 => ⟨S32768x512, .f32⟩
  | 102 => ⟨S32768x512, .f32⟩
  | 103 => ⟨S32768x512, .f32⟩
  | 104 => ⟨S1024x512, .f32⟩
  | 105 => ⟨S512x512, .f32⟩
  | 106 => ⟨S1024, .f32⟩
  | 107 => ⟨S512, .f32⟩
  | 108 => ⟨S512x1024, .f32⟩
  | 109 => ⟨S32768x1024, .f32⟩
  | 110 => ⟨S1x1024, .f32⟩
  | 111 => ⟨S32768x1024, .f32⟩
  | 112 => ⟨S32768x1024, .f32⟩
  | 113 => ⟨S32768x512, .f32⟩
  | 114 => ⟨S32768x512, .f32⟩
  | 115 => ⟨S32768x512, .f32⟩
  | 116 => ⟨S32768x512, .f32⟩
  | 117 => ⟨S32768x512, .f32⟩
  | 118 => ⟨S_, .f32⟩
  | 119 => ⟨S32768x512, .f32⟩
  | 120 => ⟨S32768x512, .f32⟩
  | 121 => ⟨S_, .f32⟩
  | 122 => ⟨S32768x512, .f32⟩
  | 123 => ⟨S32768x512, .f32⟩
  | 124 => ⟨S32768x512, .f32⟩
  | 125 => ⟨S32768x512, .f32⟩
  | 126 => ⟨S32768x512, .f32⟩
  | 127 => ⟨S_, .f32⟩
  | _ => ⟨S32768x272, .f32⟩

abbrev hbmTy0_1 (i : Nat) : BufTy := match i % 128 with
  | 0 => ⟨S32768x512, .f32⟩
  | 1 => ⟨S32768x512, .f32⟩
  | 2 => ⟨S_, .f32⟩
  | 3 => ⟨S32768x512, .f32⟩
  | 4 => ⟨S32768x512, .f32⟩
  | 5 => ⟨S32768x512, .f32⟩
  | 6 => ⟨S512x512, .f32⟩
  | 7 => ⟨S32768x512, .f32⟩
  | 8 => ⟨S32768x512, .f32⟩
  | 9 => ⟨S1x512, .f32⟩
  | 10 => ⟨S32768x512, .f32⟩
  | 11 => ⟨S32768x512, .f32⟩
  | 12 => ⟨S32768x512, .f32⟩
  | 13 => ⟨S32768x512, .f32⟩
  | 14 => ⟨S_, .f32⟩
  | 15 => ⟨S32768x512, .f32⟩
  | 16 => ⟨S32768x512, .f32⟩
  | 17 => ⟨S32768x512, .f32⟩
  | 18 => ⟨S32768x512, .f32⟩
  | 19 => ⟨S_, .f32⟩
  | 20 => ⟨S_, .f32⟩
  | 21 => ⟨S_, .f32⟩
  | 22 => ⟨S32768x512, .f32⟩
  | 23 => ⟨S32768x512, .f32⟩
  | 24 => ⟨S_, .f32⟩
  | 25 => ⟨S32768x512, .f32⟩
  | 26 => ⟨S32768x512, .f32⟩
  | 27 => ⟨S128x512, .f32⟩
  | 28 => ⟨S_, .f32⟩
  | 29 => ⟨S128, .f32⟩
  | 30 => ⟨S128x1, .f32⟩
  | 31 => ⟨S128x1, .f32⟩
  | 32 => ⟨S_, .f32⟩
  | 33 => ⟨S128x1, .f32⟩
  | 34 => ⟨S128x1, .f32⟩
  | 35 => ⟨S128x512, .f32⟩
  | 36 => ⟨S128x512, .f32⟩
  | 37 => ⟨S512x128, .f32⟩
  | 38 => ⟨S32768x128, .f32⟩
  | 39 => ⟨S32768x1104, .f32⟩
  | _ => ⟨S32768x272, .f32⟩

abbrev hbmTy (i : Nat) : BufTy := match i / 128 with
  | 0 => hbmTy0_0 i
  | 1 => hbmTy0_1 i
  | _ => ⟨S32768x272, .f32⟩

abbrev bufTy : (tb : Table) → Fin (tcTables nBuf tb) → BufTy
  | .hbm, ⟨i, _⟩ => hbmTy i
  | _, _ => ⟨S32768x272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_cst_0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_1 : Ref sig .tc := ⟨.hbm, 54, rfl⟩
abbrev main_v38 : Ref sig .tc := ⟨.hbm, 55, rfl⟩
abbrev main_v39 : Ref sig .tc := ⟨.hbm, 56, rfl⟩
abbrev main_cst_2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_3 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_4 : Ref sig .tc := ⟨.hbm, 74, rfl⟩
abbrev main_cst_5 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_6 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_7 : Ref sig .tc := ⟨.hbm, 118, rfl⟩
abbrev main_v91 : Ref sig .tc := ⟨.hbm, 119, rfl⟩
abbrev main_v92 : Ref sig .tc := ⟨.hbm, 120, rfl⟩
abbrev main_cst_8 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_9 : Ref sig .tc := ⟨.hbm, 127, rfl⟩
abbrev main_v98 : Ref sig .tc := ⟨.hbm, 128, rfl⟩
abbrev main_v99 : Ref sig .tc := ⟨.hbm, 129, rfl⟩
abbrev main_cst_10 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_11 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_12 : Ref sig .tc := ⟨.hbm, 147, rfl⟩
abbrev main_cst_13 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_call1_v3 : Ref sig .tc := ⟨.hbm, 152, rfl⟩
abbrev main_call1_v4 : Ref sig .tc := ⟨.hbm, 153, rfl⟩
abbrev main_v115 : Ref sig .tc := ⟨.hbm, 154, rfl⟩
abbrev main_call2_v0 : Ref sig .tc := ⟨.hbm, 155, rfl⟩
abbrev main_call2_cst : Ref sig .tc := ⟨.hbm, 156, rfl⟩
abbrev main_call2_v1 : Ref sig .tc := ⟨.hbm, 157, rfl⟩
abbrev main_call2_v2 : Ref sig .tc := ⟨.hbm, 158, rfl⟩
abbrev main_v116 : Ref sig .tc := ⟨.hbm, 159, rfl⟩
abbrev main_cst_14 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩

abbrev nD : Nat := 1
abbrev τ : Topo := Topo.v7x

variable {F : FTy → Type} [FloatOps F]

class Facts₀ : Prop where
  slices_S32768x1104_S32768x512_0_0 : S32768x1104.Slices ![0, 0] S32768x512
  slices_S32768x1104_S32768x256_0_512 : S32768x1104.Slices ![0, 512] S32768x256
  slices_S32768x1104_S32768x64_0_768 : S32768x1104.Slices ![0, 768] S32768x64
  slices_S32768x1104_S32768x64_0_832 : S32768x1104.Slices ![0, 832] S32768x64
  slices_S32768x1104_S32768x80_0_896 : S32768x1104.Slices ![0, 896] S32768x80
  slices_S32768x1104_S32768x128_0_976 : S32768x1104.Slices ![0, 976] S32768x128
  slices_S32768x272_S32768x256_0_0 : S32768x272.Slices ![0, 0] S32768x256
  slices_S32768x272_S32768x16_0_256 : S32768x272.Slices ![0, 256] S32768x16
  concatenates_S32768x256_S32768x128_S32768x384_d1 : Shape.Concatenates [S32768x256, S32768x128] S32768x384 1
  transposes_S768x384_S384x768_1_0 : S768x384.Transposes [1, 0] S384x768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  slices_S768x256_S512x256_0_0 : S768x256.Slices ![0, 0] S512x256
  slices_S768x256_S256x256_512_0 : S768x256.Slices ![512, 0] S256x256
  slices_S768_S512_0 : S768.Slices ![0] S512
  slices_S768_S256_512 : S768.Slices ![512] S256
  transposes_S512x256_S256x512_1_0 : S512x256.Transposes [1, 0] S256x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  slices_S32768x512_S32768x256_0_0 : S32768x512.Slices ![0, 0] S32768x256
  slices_S32768x512_S32768x256_0_256 : S32768x512.Slices ![0, 256] S32768x256
  bcast_S_S32768x256 : S_.BroadcastsInDim S32768x256 (![] : Fin 0 → Fin S32768x256.rank)
  transposes_S256x256_S256x256_1_0 : S256x256.Transposes [1, 0] S256x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  transposes_S128x256_S256x128_1_0 : S128x256.Transposes [1, 0] S256x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  slices_S32768x128_S32768x64_0_0 : S32768x128.Slices ![0, 0] S32768x64
  slices_S32768x128_S32768x64_0_64 : S32768x128.Slices ![0, 64] S32768x64
  bcast_S_S32768x64 : S_.BroadcastsInDim S32768x64 (![] : Fin 0 → Fin S32768x64.rank)
  concatenates_S32768x64_S32768x16_S32768x80_d1 : Shape.Concatenates [S32768x64, S32768x16] S32768x80 1
  transposes_S1536x80_S80x1536_1_0 : S1536x80.Transposes [1, 0] S80x1536
  bcast_S1536_S1x1536_1 : S1536.BroadcastsInDim S1x1536 (![1] : Fin 1 → Fin S1x1536.rank)
  bcast_S1x1536_S32768x1536_0_1 : S1x1536.BroadcastsInDim S32768x1536 (![0, 1] : Fin 2 → Fin S32768x1536.rank)
  slices_S32768x1536_S32768x512_0_0 : S32768x1536.Slices ![0, 0] S32768x512
  slices_S32768x1536_S32768x512_0_512 : S32768x1536.Slices ![0, 512] S32768x512
  slices_S32768x1536_S32768x512_0_1024 : S32768x1536.Slices ![0, 1024] S32768x512
  slices_S1536x512_S1024x512_0_0 : S1536x512.Slices ![0, 0] S1024x512
  slices_S1536x512_S512x512_1024_0 : S1536x512.Slices ![1024, 0] S512x512
  slices_S1536_S1024_0 : S1536.Slices ![0] S1024
  slices_S1536_S512_1024 : S1536.Slices ![1024] S512
  transposes_S1024x512_S512x1024_1_0 : S1024x512.Transposes [1, 0] S512x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x512_0_0 : S32768x1024.Slices ![0, 0] S32768x512
  slices_S32768x1024_S32768x512_0_512 : S32768x1024.Slices ![0, 512] S32768x512
  bcast_S_S32768x512 : S_.BroadcastsInDim S32768x512 (![] : Fin 0 → Fin S32768x512.rank)
  transposes_S512x512_S512x512_1_0 : S512x512.Transposes [1, 0] S512x512
  reducesTo_S128x512_S128_d1 : S128x512.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x512_0_1 : S128x1.BroadcastsInDim S128x512 (![0, 1] : Fin 2 → Fin S128x512.rank)
  transposes_S128x512_S512x128_1_0 : S128x512.Transposes [1, 0] S512x128
  concatenates_S32768x512_S32768x256_S32768x64_S32768x64_S32768x80_S32768x128_S32768x1104_d1 : Shape.Concatenates [S32768x512, S32768x256, S32768x64, S32768x64, S32768x80, S32768x128] S32768x1104 1
  dot_S32768x384_S384x768_S32768x768_1_0_0_1_n_n_wf : DotDims.WF S32768x384 S384x768 S32768x768 [1] [0] [0] [1] [] []
  dot_S32768x256_S256x512_S32768x512_1_0_0_1_n_n_wf : DotDims.WF S32768x256 S256x512 S32768x512 [1] [0] [0] [1] [] []
  dot_S32768x256_S256x256_S32768x256_1_0_0_1_n_n_wf : DotDims.WF S32768x256 S256x256 S32768x256 [1] [0] [0] [1] [] []
  dot_S32768x256_S256x128_S32768x128_1_0_0_1_n_n_wf : DotDims.WF S32768x256 S256x128 S32768x128 [1] [0] [0] [1] [] []
  dot_S32768x80_S80x1536_S32768x1536_1_0_0_1_n_n_wf : DotDims.WF S32768x80 S80x1536 S32768x1536 [1] [0] [0] [1] [] []
  dot_S32768x512_S512x1024_S32768x1024_1_0_0_1_n_n_wf : DotDims.WF S32768x512 S512x1024 S32768x1024 [1] [0] [0] [1] [] []
  dot_S32768x512_S512x512_S32768x512_1_0_0_1_n_n_wf : DotDims.WF S32768x512 S512x512 S32768x512 [1] [0] [0] [1] [] []
  dot_S32768x512_S512x128_S32768x128_1_0_0_1_n_n_wf : DotDims.WF S32768x512 S512x128 S32768x128 [1] [0] [0] [1] [] []

variable [Facts₀]

def dot_S32768x384_S384x768_S32768x768_1_0_0_1_n_n : DotDims S32768x384 S384x768 S32768x768 where
  lhsContracting := [1]
  rhsContracting := [0]
  lhsNonContracting := [0]
  rhsNonContracting := [1]
  lhsBatch := []
  rhsBatch := []
  wf := dot_S32768x384_S384x768_S32768x768_1_0_0_1_n_n_wf
def dot_S32768x256_S256x512_S32768x512_1_0_0_1_n_n : DotDims S32768x256 S256x512 S32768x512 where
  lhsContracting := [1]
  rhsContracting := [0]
  lhsNonContracting := [0]
  rhsNonContracting := [1]
  lhsBatch := []
  rhsBatch := []
  wf := dot_S32768x256_S256x512_S32768x512_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf
def dot_S32768x80_S80x1536_S32768x1536_1_0_0_1_n_n : DotDims S32768x80 S80x1536 S32768x1536 where
  lhsContracting := [1]
  rhsContracting := [0]
  lhsNonContracting := [0]
  rhsNonContracting := [1]
  lhsBatch := []
  rhsBatch := []
  wf := dot_S32768x80_S80x1536_S32768x1536_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x128_S32768x128_1_0_0_1_n_n : DotDims S32768x512 S512x128 S32768x128 where
  lhsContracting := [1]
  rhsContracting := [0]
  lhsNonContracting := [0]
  rhsNonContracting := [1]
  lhsBatch := []
  rhsBatch := []
  wf := dot_S32768x512_S512x128_S32768x128_1_0_0_1_n_n_wf

class Facts : Prop extends Facts₀ where

variable [Facts]
-- ==== Proof.LibRowRel.lean ====
/-
  Arrays related row by row.

  Two matrices x : [M, N] and y : [M', N] are related along a map ρ of rows when row p of x is row ρ p of y,
  entry by entry, as extended reals.  Every operation that treats the rows of a matrix separately preserves the
  relation: a slice of columns, a concatenation of two or of six pieces along the columns, a pointwise sum, product, difference, maximum or
  minimum, a pointwise function, a change of float format (the identity on extended reals), the addition of one bias
  row to every row, and a splat constant.  The logistic function of the vector unit is related to the quotient
  1 / (1 + exp (−y)) the host computes, because at the ideal values it is that quotient by definition.  Any extents.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.LibRowRel

open Idealize.ShloMosaic Idealize.ShloMosaic.ValueIdx

variable {M M' : Nat}

/-- Row p of x is row ρ p of y. The left matrix may be in any float format; the right one is in f32 (a host array). -/
def Rel (ρ : Fin M → Fin M') {N : Nat} {φ : FTy} (x : FVec Ideal ⟨2, ![M, N]⟩ φ) (y : FVec Ideal ⟨2, ![M', N]⟩ .f32) : Prop :=
  ∀ (p : Fin M) (j : Fin N), (x (ix2 p j) : EReal) = y (ix2 (ρ p) j)

variable {ρ : Fin M → Fin M'}

/-- Columns o … o + n − 1 of related matrices are related. -/
theorem Rel.slice {N n : Nat} {φ : FTy} {x : FVec Ideal ⟨2, ![M, N]⟩ φ} {y : FVec Ideal ⟨2, ![M', N]⟩ .f32} (h : Rel ρ x y) (o : Nat)
    (hx : (⟨2, ![M, N]⟩ : Shape).Slices ![0, o] ⟨2, ![M, n]⟩) (hy : (⟨2, ![M', N]⟩ : Shape).Slices ![0, o] ⟨2, ![M', n]⟩) :
    Rel ρ (φ := φ) (extractStridedSlice ⟨2, ![M, n]⟩ ![0, o] x hx) (extractStridedSlice ⟨2, ![M', n]⟩ ![0, o] y hy) := fun p j => by
  rw [slice2_axis1_eq o x hx p j, slice2_axis1_eq o y hy (ρ p) j]
  exact h p _

/-- Two related pairs laid side by side are related. -/
theorem Rel.concat2 {a b c : Nat} {φ : FTy} {x₁ : FVec Ideal ⟨2, ![M, a]⟩ φ} {x₂ : FVec Ideal ⟨2, ![M, b]⟩ φ}
    {y₁ : FVec Ideal ⟨2, ![M', a]⟩ .f32} {y₂ : FVec Ideal ⟨2, ![M', b]⟩ .f32} (h₁ : Rel ρ x₁ y₁) (h₂ : Rel ρ x₂ y₂)
    (hx : Shape.Concatenates [⟨2, ![M, a]⟩, ⟨2, ![M, b]⟩] ⟨2, ![M, c]⟩ 1)
    (hy : Shape.Concatenates [⟨2, ![M', a]⟩, ⟨2, ![M', b]⟩] ⟨2, ![M', c]⟩ 1) :
    Rel ρ (φ := φ) (concatenate ⟨2, ![M, c]⟩ 1 [⟨⟨2, ![M, a]⟩, x₁⟩, ⟨⟨2, ![M, b]⟩, x₂⟩] hx)
      (concatenate ⟨2, ![M', c]⟩ 1 [⟨⟨2, ![M', a]⟩, y₁⟩, ⟨⟨2, ![M', b]⟩, y₂⟩] hy) := fun p j => by
  by_cases hj : j.val < a
  · rw [concatenate_pair_apply_left 1 x₁ x₂ hx (ix2 p j) rfl (ix2 p ⟨j.val, hj⟩)
          (fun d => by match d with | ⟨0, _⟩ => rfl | ⟨1, _⟩ => rfl),
        concatenate_pair_apply_left 1 y₁ y₂ hy (ix2 (ρ p) j) rfl (ix2 (ρ p) ⟨j.val, hj⟩)
          (fun d => by match d with | ⟨0, _⟩ => rfl | ⟨1, _⟩ => rfl)]
    exact h₁ p _
  · have hc : a + (b + 0) = c := hx.2.2
    have hj' : j.val - a < b := by have := j.isLt; omega
    rw [concatenate_pair_apply_right 1 x₁ x₂ hx (ix2 p j) rfl rfl (ix2 p ⟨j.val - a, hj'⟩)
          (fun d hd => by match d with | ⟨0, _⟩ => rfl | ⟨1, _⟩ => exact absurd rfl hd)
          (by show j.val - a + a = j.val; omega),
        concatenate_pair_apply_right 1 y₁ y₂ hy (ix2 (ρ p) j) rfl rfl (ix2 (ρ p) ⟨j.val - a, hj'⟩)
          (fun d hd => by match d with | ⟨0, _⟩ => rfl | ⟨1, _⟩ => exact absurd rfl hd)
          (by show j.val - a + a = j.val; omega)]
    exact h₂ p _

section Pointwise
variable {N : Nat} {φ : FTy} {x x' : FVec Ideal ⟨2, ![M, N]⟩ φ} {y y' : FVec Ideal ⟨2, ![M', N]⟩ .f32}

theorem Rel.addf (h : Rel ρ x y) (h' : Rel ρ x' y') : Rel ρ (addf x x') (addf y y') := fun p j => by
  show (x (ix2 p j) : EReal) + x' (ix2 p j) = y (ix2 (ρ p) j) + y' (ix2 (ρ p) j)
  rw [h p j, h' p j]

theorem Rel.mulf (h : Rel ρ x y) (h' : Rel ρ x' y') : Rel ρ (mulf x x') (mulf y y') := fun p j => by
  show (x (ix2 p j) : EReal) * x' (ix2 p j) = y (ix2 (ρ p) j) * y' (ix2 (ρ p) j)
  rw [h p j, h' p j]

theorem Rel.subf (h : Rel ρ x y) (h' : Rel ρ x' y') : Rel ρ (subf x x') (subf y y') := fun p j => by
  show (x (ix2 p j) : EReal) - x' (ix2 p j) = y (ix2 (ρ p) j) - y' (ix2 (ρ p) j)
  rw [h p j, h' p j]

theorem Rel.maximumf (h : Rel ρ x y) (h' : Rel ρ x' y') : Rel ρ (maximumf x x') (maximumf y y') := fun p j => by
  show max (x (ix2 p j) : EReal) (x' (ix2 p j)) = max (y (ix2 (ρ p) j)) (y' (ix2 (ρ p) j))
  rw [h p j, h' p j]

theorem Rel.minimumf (h : Rel ρ x y) (h' : Rel ρ x' y') : Rel ρ (minimumf x x') (minimumf y y') := fun p j => by
  show min (x (ix2 p j) : EReal) (x' (ix2 p j)) = min (y (ix2 (ρ p) j)) (y' (ix2 (ρ p) j))
  rw [h p j, h' p j]

/-- Sums of three related terms are related however they are grouped: addition of extended reals is associative. -/
theorem Rel.addf_assoc {x'' : FVec Ideal ⟨2, ![M, N]⟩ φ} {y'' : FVec Ideal ⟨2, ![M', N]⟩ .f32}
    (h : Rel ρ x y) (h' : Rel ρ x' y') (h'' : Rel ρ x'' y'') :
    Rel ρ (Idealize.ShloMosaic.addf x (Idealize.ShloMosaic.addf x' x'')) (Idealize.ShloMosaic.addf (Idealize.ShloMosaic.addf y y') y'') := fun p j => by
  show (x (ix2 p j) : EReal) + (x' (ix2 p j) + x'' (ix2 p j)) = y (ix2 (ρ p) j) + y' (ix2 (ρ p) j) + y'' (ix2 (ρ p) j)
  rw [h p j, h' p j, h'' p j, add_assoc]

/-- The vector unit's hyperbolic tangent and the host's are one function of an extended real. -/
theorem Rel.tanh (h : Rel ρ x y) : Rel ρ (tanh x) (Host.tanh y) := fun p j => by
  show Ideal.tanh (x (ix2 p j)) = Ideal.tanh (y (ix2 (ρ p) j))
  rw [h p j]

/-- The vector unit's exponential and the host's are one function of an extended real. -/
theorem Rel.exp (h : Rel ρ x y) : Rel ρ (exp x) (Host.exp y) := fun p j => by
  show Ideal.exp (x (ix2 p j)) = Ideal.exp (y (ix2 (ρ p) j))
  rw [h p j]

/-- A change of float format on the left is the identity on extended reals. -/
theorem Rel.truncf_left {φ' : FTy} (hb : φ'.bits < φ.bits) (h : Rel ρ x y) : Rel ρ (truncf φ' x hb) y := fun p j => h p j

end Pointwise

/-- A broadcast scalar constant read anywhere is the value of its word. -/
theorem splat_apply {t : Shape} (φ : FTy) (w : BitVec φ.bits) (hb : (⟨0, ![]⟩ : Shape).BroadcastsInDim t ![]) (i : t.Idx) :
    broadcastInDim t ![] hb (constant (F := Ideal) ⟨0, ![]⟩ φ w) i = Ideal.ofBits φ w :=
  broadcastInDim_apply ![] hb _ i ix0 (fun a => a.elim0)

/-- The vector unit's splat of a scalar literal and the host's broadcast of the same word are related. -/
theorem Rel.splat {N : Nat} (w : BitVec 32) (hb : (⟨0, ![]⟩ : Shape).BroadcastsInDim ⟨2, ![M', N]⟩ ![]) :
    Rel ρ (φ := .f32) (broadcast ⟨2, ![M, N]⟩ (Scalar.ofBits (F := Ideal) .f32 w))
      (broadcastInDim ⟨2, ![M', N]⟩ ![] hb (constant (F := Ideal) ⟨0, ![]⟩ .f32 w)) := fun p j => by
  rw [splat_apply]; rfl

/-- The vector unit's logistic function is, at the ideal values, the quotient 1 / (1 + exp (−y)) the host spells out
    with the word of 1.0. -/
theorem Rel.logistic {N : Nat} {x : FVec Ideal ⟨2, ![M, N]⟩ .f32} {y : FVec Ideal ⟨2, ![M', N]⟩ .f32} (h : Rel ρ x y)
    (hb hb' : (⟨0, ![]⟩ : Shape).BroadcastsInDim ⟨2, ![M', N]⟩ ![]) :
    Rel ρ (logistic x)
      (Host.divf (broadcastInDim ⟨2, ![M', N]⟩ ![] hb (constant (F := Ideal) ⟨0, ![]⟩ .f32 0x3F800000#32))
        (Idealize.ShloMosaic.addf (broadcastInDim ⟨2, ![M', N]⟩ ![] hb' (constant (F := Ideal) ⟨0, ![]⟩ .f32 0x3F800000#32))
          (Host.exp (Host.negf y)))) := fun p j => by
  show Ideal.logistic (x (ix2 p j))
    = Ideal.div (broadcastInDim ⟨2, ![M', N]⟩ ![] hb (constant (F := Ideal) ⟨0, ![]⟩ .f32 0x3F800000#32) (ix2 (ρ p) j))
        (broadcastInDim ⟨2, ![M', N]⟩ ![] hb' (constant (F := Ideal) ⟨0, ![]⟩ .f32 0x3F800000#32) (ix2 (ρ p) j)
          + Ideal.exp (-(y (ix2 (ρ p) j))))
  rw [splat_apply, Ideal.ofBits_one_f32, h p j]
  rfl

/-- One bias row added to every row: the vector unit broadcasts the row, the host broadcasts it in the two dimensions. -/
theorem Rel.biasRow {N : Nat} {φ : FTy} {b : FVec Ideal ⟨2, ![1, N]⟩ φ} {b' : FVec Ideal ⟨2, ![1, N]⟩ .f32}
    (h : ∀ i, (b i : EReal) = b' i)
    (hb : (⟨2, ![1, N]⟩ : Shape).Broadcasts ⟨2, ![M, N]⟩) (hb' : (⟨2, ![1, N]⟩ : Shape).BroadcastsInDim ⟨2, ![M', N]⟩ ![0, 1]) :
    Rel ρ (φ := φ) (broadcastTo ⟨2, ![M, N]⟩ b hb) (broadcastInDim ⟨2, ![M', N]⟩ ![0, 1] hb' b') := fun p j => by
  rw [broadcastTo_1b_ab_apply b hb p j,
    broadcastInDim_apply ![0, 1] hb' b' (ix2 (ρ p) j) (ix2 (0 : Fin 1) j) (fun a => by
      match a with
      | ⟨0, _⟩ => show (0 : Nat) = if (1 : Nat) = 1 then 0 else _; rw [if_pos rfl]
      | ⟨1, _⟩ =>
        show j.val = if N = 1 then 0 else j.val
        split
        · have := j.isLt; omega
        · rfl)]
  exact h _

/-- Six related pieces laid side by side are related: an entry of the joined matrix comes from the piece whose span of
    columns holds its column, at the same row and at the column less the extents of the pieces before it. -/
theorem Rel.concat6 {a1 a2 a3 a4 a5 a6 c : Nat} {φ : FTy}
    {x1 : FVec Ideal ⟨2, ![M, a1]⟩ φ} {x2 : FVec Ideal ⟨2, ![M, a2]⟩ φ} {x3 : FVec Ideal ⟨2, ![M, a3]⟩ φ}
    {x4 : FVec Ideal ⟨2, ![M, a4]⟩ φ} {x5 : FVec Ideal ⟨2, ![M, a5]⟩ φ} {x6 : FVec Ideal ⟨2, ![M, a6]⟩ φ}
    {y1 : FVec Ideal ⟨2, ![M', a1]⟩ .f32} {y2 : FVec Ideal ⟨2, ![M', a2]⟩ .f32} {y3 : FVec Ideal ⟨2, ![M', a3]⟩ .f32}
    {y4 : FVec Ideal ⟨2, ![M', a4]⟩ .f32} {y5 : FVec Ideal ⟨2, ![M', a5]⟩ .f32} {y6 : FVec Ideal ⟨2, ![M', a6]⟩ .f32}
    (h1 : Rel ρ x1 y1) (h2 : Rel ρ x2 y2) (h3 : Rel ρ x3 y3) (h4 : Rel ρ x4 y4) (h5 : Rel ρ x5 y5) (h6 : Rel ρ x6 y6)
    (hx : Shape.Concatenates [⟨2, ![M, a1]⟩, ⟨2, ![M, a2]⟩, ⟨2, ![M, a3]⟩, ⟨2, ![M, a4]⟩, ⟨2, ![M, a5]⟩, ⟨2, ![M, a6]⟩] ⟨2, ![M, c]⟩ 1)
    (hy : Shape.Concatenates [⟨2, ![M', a1]⟩, ⟨2, ![M', a2]⟩, ⟨2, ![M', a3]⟩, ⟨2, ![M', a4]⟩, ⟨2, ![M', a5]⟩, ⟨2, ![M', a6]⟩] ⟨2, ![M', c]⟩ 1) :
    Rel ρ (φ := φ)
      (concatenate ⟨2, ![M, c]⟩ 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx)
      (concatenate ⟨2, ![M', c]⟩ 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy) := fun p j => by
  have hc : a1 + (a2 + (a3 + (a4 + (a5 + (a6 + 0))))) = c := hx.2.2
  have hjc := j.isLt
  -- the piece that holds column j, from the left
  by_cases c1 : j.val < a1
  · rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 0 (by show (0 : Nat) < 6; decide) _ x1 rfl rfl 0 rfl (ix2 p ⟨j.val, c1⟩)
          (fun d hd => by match d with | ⟨0, _⟩ => rfl | ⟨1, _⟩ => exact absurd rfl hd) (by show 0 + j.val = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 0 (by show (0 : Nat) < 6; decide) _ y1 rfl rfl 0 rfl (ix2 (ρ p) ⟨j.val, c1⟩)
          (fun d hd => by match d with | ⟨0, _⟩ => rfl | ⟨1, _⟩ => exact absurd rfl hd) (by show 0 + j.val = j.val; omega)]
    exact h1 p _
  by_cases c2 : j.val < a1 + a2
  · have hb : j.val - a1 < a2 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 1 (by show (1 : Nat) < 6; decide) _ x2 rfl rfl (a1 + 0) rfl (ix2 p ⟨j.val - a1, hb⟩)
          (fun d hd => by match d with | ⟨0, _⟩ => rfl | ⟨1, _⟩ => exact absurd rfl hd) (by show a1 + 0 + (j.val - a1) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 1 (by show (1 : Nat) < 6; decide) _ y2 rfl rfl (a1 + 0) rfl (ix2 (ρ p) ⟨j.val - a1, hb⟩)
          (fun d hd => by match d with | ⟨0, _⟩ => rfl | ⟨1, _⟩ => exact absurd rfl hd) (by show a1 + 0 + (j.val - a1) = j.val; omega)]
    exact h2 p _
  by_cases c3 : j.val < a1 + a2 + a3
  · have hb : j.val - (a1 + a2) < a3 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 2 (by show (2 : Nat) < 6; decide) _ x3 rfl rfl (a1 + (a2 + 0)) rfl (ix2 p ⟨j.val - (a1 + a2), hb⟩)
          (fun d hd => by match d with | ⟨0, _⟩ => rfl | ⟨1, _⟩ => exact absurd rfl hd) (by show a1 + (a2 + 0) + (j.val - (a1 + a2)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 2 (by show (2 : Nat) < 6; decide) _ y3 rfl rfl (a1 + (a2 + 0)) rfl (ix2 (ρ p) ⟨j.val - (a1 + a2), hb⟩)
          (fun d hd => by match d with | ⟨0, _⟩ => rfl | ⟨1, _⟩ => exact absurd rfl hd) (by show a1 + (a2 + 0) + (j.val - (a1 + a2)) = j.val; omega)]
    exact h3 p _
  by_cases c4 : j.val < a1 + a2 + a3 + a4
  · have hb : j.val - (a1 + a2 + a3) < a4 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 3 (by show (3 : Nat) < 6; decide) _ x4 rfl rfl (a1 + (a2 + (a3 + 0))) rfl (ix2 p ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 3 (by show (3 : Nat) < 6; decide) _ y4 rfl rfl (a1 + (a2 + (a3 + 0))) rfl (ix2 (ρ p) ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega)]
    exact h4 p _
  by_cases c5 : j.val < a1 + a2 + a3 + a4 + a5
  · have hb : j.val - (a1 + a2 + a3 + a4) < a5 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 4 (by show (4 : Nat) < 6; decide) _ x5 rfl rfl (a1 + (a2 + (a3 + (a4 + 0)))) rfl (ix2 p ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 4 (by show (4 : Nat) < 6; decide) _ y5 rfl rfl (a1 + (a2 + (a3 + (a4 + 0)))) rfl (ix2 (ρ p) ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega)]
    exact h5 p _
  · have hb : j.val - (a1 + a2 + a3 + a4 + a5) < a6 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 5 (by show (5 : Nat) < 6; decide) _ x6 rfl rfl (a1 + (a2 + (a3 + (a4 + (a5 + 0))))) rfl (ix2 p ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 5 (by show (5 : Nat) < 6; decide) _ y6 rfl rfl (a1 + (a2 + (a3 + (a4 + (a5 + 0))))) rfl (ix2 (ρ p) ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega)]
    exact h6 p _

end Cert.LibRowRel

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.LibRowDot.lean ====
/-
  A matrix product keeps rows related.

  If row p of l is row ρ p of l', and the right operands agree entry by entry, then row p of the vector unit's product
  l · w into the zero accumulator is row ρ p of the host's product l' · w': at the ideal values both are the plain sums
  Σ_k l[p,k] · w[k,q].  The dimension numbers enter through six facts (one contraction axis of extent K; where an output
  index and a contraction index go in each operand), collected in one record.  Any extents.
-/
import proofs.«131115_j6021544149148_2_alg».proof.Proof.LibDotAt
import proofs.«131115_j6021544149148_2_alg».proof.Proof.LibRowRel

noncomputable section

namespace Cert.LibRowRel

open Idealize.ShloMosaic Idealize.ShloMosaic.ValueIdx

/-- Dimension numbers of a plain M×K by K×N product: the second axis of the left operand is contracted with the first of the
    right one, nothing is batched. -/
structure Plain {M K N : Nat} (D : DotDims ⟨2, ![M, K]⟩ ⟨2, ![K, N]⟩ ⟨2, ![M, N]⟩) : Prop where
  rank : D.contr.rank = 1
  size : D.contr.size ⟨0, by omega⟩ = K
  l0 : ∀ (j : (⟨2, ![M, N]⟩ : Shape).Idx) (c : D.contr.Idx), (D.lhsIdx j c 0).val = (j 0).val
  l1 : ∀ (j : (⟨2, ![M, N]⟩ : Shape).Idx) (c : D.contr.Idx), (D.lhsIdx j c 1).val = (c ⟨0, by omega⟩).val
  r0 : ∀ (j : (⟨2, ![M, N]⟩ : Shape).Idx) (c : D.contr.Idx), (D.rhsIdx j c 0).val = (c ⟨0, by omega⟩).val
  r1 : ∀ (j : (⟨2, ![M, N]⟩ : Shape).Idx) (c : D.contr.Idx), (D.rhsIdx j c 1).val = (j 1).val

variable {M M' : Nat} {ρ : Fin M → Fin M'}

/-- Products of related left operands with equal right operands are related. -/
theorem Rel.matmul {K N : Nat} {φ₁ φ₂ : FTy}
    {D : DotDims ⟨2, ![M, K]⟩ ⟨2, ![K, N]⟩ ⟨2, ![M, N]⟩} {D' : DotDims ⟨2, ![M', K]⟩ ⟨2, ![K, N]⟩ ⟨2, ![M', N]⟩}
    (hD : Plain D) (hD' : Plain D')
    {l : FVec Ideal ⟨2, ![M, K]⟩ φ₁} {l' : FVec Ideal ⟨2, ![M', K]⟩ .f32}
    {w : FVec Ideal ⟨2, ![K, N]⟩ φ₂} {w' : FVec Ideal ⟨2, ![K, N]⟩ .f32}
    (hl : Rel ρ l l') (hw : ∀ i, (w i : EReal) = w' i) (prec prec' : Option ContractPrecision) :
    Rel ρ (φ := .f32) (matmul D prec l w (constant (F := Ideal) ⟨2, ![M, N]⟩ .f32 0x00000000#32))
      (Host.dotGeneral D' prec' l' w') := fun p j => by
  show FloatOps.matmul D prec l w (constant (F := Ideal) ⟨2, ![M, N]⟩ .f32 0x00000000#32) (ix2 p j)
    = FloatOps.dotGeneral D' prec' .single l' w' (ix2 (ρ p) j)
  rw [Cert.LibDotAt.matmul_zero_ix2 D hD.rank hD.size hD.l0 hD.l1 hD.r0 hD.r1,
    Cert.LibDotAt.dotGeneral_ix2 D' hD'.rank hD'.size hD'.l0 hD'.l1 hD'.r0 hD'.r1]
  refine Finset.sum_congr rfl fun k _ => ?_
  rw [hl p k, hw (ix2 k j)]

/-- A cast of a vector to its own shape changes nothing. -/
theorem castSelf {s : Shape} {φ : FTy} {x : FVec Ideal s φ} {y : FVec Ideal s .f32} (h : ∀ i, (x i : EReal) = y i)
    (hs : s.ShapeCasts s) : ∀ i, (shapeCast s x hs i : EReal) = y i := by
  rw [shapeCast_self]; exact h

end Cert.LibRowRel

end
-- ==== Proof.Dots.lean ====
/-
  The dimension numbers of the sixteen matrix products of the two programs are those of a plain product.

  Each of the kernel's eight matrix products and each of the reference's eight contracts the second axis of its left
  operand with the first axis of its right operand and batches nothing; the six facts of a plain product are read off
  each printed record.
-/
import proofs.«131115_j6021544149148_2_alg».proof.Proof.Gen.KernelIdeal.Skeleton
import proofs.«131115_j6021544149148_2_alg».proof.Proof.Gen.ReferenceIdeal.Read
import proofs.«131115_j6021544149148_2_alg».proof.Proof.LibRowDot

noncomputable section

namespace Cert.Bridge

open Idealize.ShloMosaic Cert.LibRowRel

/-- The kernel's product 512x384 by 384x768 (result 512x768). -/
theorem plainK_384 : Plain Cert.KernelIdeal.dot_S512x384_S384x768_S512x768_1_0_0_1_n_n where
  rank := rfl
  size := rfl
  l0 := fun j c => by
    unfold DotDims.lhsIdx
    rw [dif_neg (show ¬(0 : Fin 2) ∈ Cert.KernelIdeal.dot_S512x384_S384x768_S512x768_1_0_0_1_n_n.lhsBatch by decide), dif_pos (show (0 : Fin 2) ∈ Cert.KernelIdeal.dot_S512x384_S384x768_S512x768_1_0_0_1_n_n.lhsNonContracting by decide)]
    rfl
  l1 := fun j c => Cert.KernelIdeal.dot_S512x384_S384x768_S512x768_1_0_0_1_n_n.lhsIdx_val_of_single rfl j c
  r0 := fun j c => Cert.KernelIdeal.dot_S512x384_S384x768_S512x768_1_0_0_1_n_n.rhsIdx_val_of_single rfl j c
  r1 := fun j c => by
    unfold DotDims.rhsIdx
    rw [dif_neg (show ¬(1 : Fin 2) ∈ Cert.KernelIdeal.dot_S512x384_S384x768_S512x768_1_0_0_1_n_n.rhsBatch by decide), dif_pos (show (1 : Fin 2) ∈ Cert.KernelIdeal.dot_S512x384_S384x768_S512x768_1_0_0_1_n_n.rhsNonContracting by decide)]
    rfl

/-- The kernel's product 512x256 by 256x512 (result 512x512). -/
theorem plainK_256a : Plain Cert.KernelIdeal.dot_S512x256_S256x512_S512x512_1_0_0_1_n_n where
  rank := rfl
  size := rfl
  l0 := fun j c => by
    unfold DotDims.lhsIdx
    rw [dif_neg (show ¬(0 : Fin 2) ∈ Cert.KernelIdeal.dot_S512x256_S256x512_S512x512_1_0_0_1_n_n.lhsBatch by decide), dif_pos (show (0 : Fin 2) ∈ Cert.KernelIdeal.dot_S512x256_S256x512_S512x512_1_0_0_1_n_n.lhsNonContracting by decide)]
    rfl
  l1 := fun j c => Cert.KernelIdeal.dot_S512x256_S256x512_S512x512_1_0_0_1_n_n.lhsIdx_val_of_single rfl j c
  r0 := fun j c => Cert.KernelIdeal.dot_S512x256_S256x512_S512x512_1_0_0_1_n_n.rhsIdx_val_of_single rfl j c
  r1 := fun j c => by
    unfold DotDims.rhsIdx
    rw [dif_neg (show ¬(1 : Fin 2) ∈ Cert.KernelIdeal.dot_S512x256_S256x512_S512x512_1_0_0_1_n_n.rhsBatch by decide), dif_pos (show (1 : Fin 2) ∈ Cert.KernelIdeal.dot_S512x256_S256x512_S512x512_1_0_0_1_n_n.rhsNonContracting by decide)]
    rfl

/-- The kernel's product 512x256 by 256x256 (result 512x256). -/
theorem plainK_256b : Plain Cert.KernelIdeal.dot_S512x256_S256x256_S512x256_1_0_0_1_n_n where
  rank := rfl
  size := rfl
  l0 := fun j c => by
    unfold DotDims.lhsIdx
    rw [dif_neg (show ¬(0 : Fin 2) ∈ Cert.KernelIdeal.dot_S512x256_S256x256_S512x256_1_0_0_1_n_n.lhsBatch by decide), dif_pos (show (0 : Fin 2) ∈ Cert.KernelIdeal.dot_S512x256_S256x256_S512x256_1_0_0_1_n_n.lhsNonContracting by decide)]
    rfl
  l1 := fun j c => Cert.KernelIdeal.dot_S512x256_S256x256_S512x256_1_0_0_1_n_n.lhsIdx_val_of_single rfl j c
  r0 := fun j c => Cert.KernelIdeal.dot_S512x256_S256x256_S512x256_1_0_0_1_n_n.rhsIdx_val_of_single rfl j c
  r1 := fun j c => by
    unfold DotDims.rhsIdx
    rw [dif_neg (show ¬(1 : Fin 2) ∈ Cert.KernelIdeal.dot_S512x256_S256x256_S512x256_1_0_0_1_n_n.rhsBatch by decide), dif_pos (show (1 : Fin 2) ∈ Cert.KernelIdeal.dot_S512x256_S256x256_S512x256_1_0_0_1_n_n.rhsNonContracting by decide)]
    rfl

/-- The kernel's product 512x256 by 256x128 (result 512x128). -/
theorem plainK_256c : Plain Cert.KernelIdeal.dot_S512x256_S256x128_S512x128_1_0_0_1_n_n where
  rank := rfl
  size := rfl
  l0 := fun j c => by
    unfold DotDims.lhsIdx
    rw [dif_neg (show ¬(0 : Fin 2) ∈ Cert.KernelIdeal.dot_S512x256_S256x128_S512x128_1_0_0_1_n_n.lhsBatch by decide), dif_pos (show (0 : Fin 2) ∈ Cert.KernelIdeal.dot_S512x256_S256x128_S512x128_1_0_0_1_n_n.lhsNonContracting by decide)]
    rfl
  l1 := fun j c => Cert.KernelIdeal.dot_S512x256_S256x128_S512x128_1_0_0_1_n_n.lhsIdx_val_of_single rfl j c
  r0 := fun j c => Cert.KernelIdeal.dot_S512x256_S256x128_S512x128_1_0_0_1_n_n.rhsIdx_val_of_single rfl j c
  r1 := fun j c => by
    unfold DotDims.rhsIdx
    rw [dif_neg (show ¬(1 : Fin 2) ∈ Cert.KernelIdeal.dot_S512x256_S256x128_S512x128_1_0_0_1_n_n.rhsBatch by decide), dif_pos (show (1 : Fin 2) ∈ Cert.KernelIdeal.dot_S512x256_S256x128_S512x128_1_0_0_1_n_n.rhsNonContracting by decide)]
    rfl

/-- The kernel's product 512x80 by 80x1536 (result 512x1536). -/
theorem plainK_80 : Plain Cert.KernelIdeal.dot_S512x80_S80x1536_S512x1536_1_0_0_1_n_n where
  rank := rfl
  size := rfl
  l0 := fun j c => by
    unfold DotDims.lhsIdx
    rw [dif_neg (show ¬(0 : Fin 2) ∈ Cert.KernelIdeal.dot_S512x80_S80x1536_S512x1536_1_0_0_1_n_n.lhsBatch by decide), dif_pos (show (0 : Fin 2) ∈ Cert.KernelIdeal.dot_S512x80_S80x1536_S512x1536_1_0_0_1_n_n.lhsNonContracting by decide)]
    rfl
  l1 := fun j c => Cert.KernelIdeal.dot_S512x80_S80x1536_S512x1536_1_0_0_1_n_n.lhsIdx_val_of_single rfl j c
  r0 := fun j c => Cert.KernelIdeal.dot_S512x80_S80x1536_S512x1536_1_0_0_1_n_n.rhsIdx_val_of_single rfl j c
  r1 := fun j c => by
    unfold DotDims.rhsIdx
    rw [dif_neg (show ¬(1 : Fin 2) ∈ Cert.KernelIdeal.dot_S512x80_S80x1536_S512x1536_1_0_0_1_n_n.rhsBatch by decide), dif_pos (show (1 : Fin 2) ∈ Cert.KernelIdeal.dot_S512x80_S80x1536_S512x1536_1_0_0_1_n_n.rhsNonContracting by decide)]
    rfl

/-- The kernel's product 512x512 by 512x1024 (result 512x1024). -/
theorem plainK_512a : Plain Cert.KernelIdeal.dot_S512x512_S512x1024_S512x1024_1_0_0_1_n_n where
  rank := rfl
  size := rfl
  l0 := fun j c => by
    unfold DotDims.lhsIdx
    rw [dif_neg (show ¬(0 : Fin 2) ∈ Cert.KernelIdeal.dot_S512x512_S512x1024_S512x1024_1_0_0_1_n_n.lhsBatch by decide), dif_pos (show (0 : Fin 2) ∈ Cert.KernelIdeal.dot_S512x512_S512x1024_S512x1024_1_0_0_1_n_n.lhsNonContracting by decide)]
    rfl
  l1 := fun j c => Cert.KernelIdeal.dot_S512x512_S512x1024_S512x1024_1_0_0_1_n_n.lhsIdx_val_of_single rfl j c
  r0 := fun j c => Cert.KernelIdeal.dot_S512x512_S512x1024_S512x1024_1_0_0_1_n_n.rhsIdx_val_of_single rfl j c
  r1 := fun j c => by
    unfold DotDims.rhsIdx
    rw [dif_neg (show ¬(1 : Fin 2) ∈ Cert.KernelIdeal.dot_S512x512_S512x1024_S512x1024_1_0_0_1_n_n.rhsBatch by decide), dif_pos (show (1 : Fin 2) ∈ Cert.KernelIdeal.dot_S512x512_S512x1024_S512x1024_1_0_0_1_n_n.rhsNonContracting by decide)]
    rfl

/-- The kernel's product 512x512 by 512x512 (result 512x512). -/
theorem plainK_512b : Plain Cert.KernelIdeal.dot_S512x512_S512x512_S512x512_1_0_0_1_n_n where
  rank := rfl
  size := rfl
  l0 := fun j c => by
    unfold DotDims.lhsIdx
    rw [dif_neg (show ¬(0 : Fin 2) ∈ Cert.KernelIdeal.dot_S512x512_S512x512_S512x512_1_0_0_1_n_n.lhsBatch by decide), dif_pos (show (0 : Fin 2) ∈ Cert.KernelIdeal.dot_S512x512_S512x512_S512x512_1_0_0_1_n_n.lhsNonContracting by decide)]
    rfl
  l1 := fun j c => Cert.KernelIdeal.dot_S512x512_S512x512_S512x512_1_0_0_1_n_n.lhsIdx_val_of_single rfl j c
  r0 := fun j c => Cert.KernelIdeal.dot_S512x512_S512x512_S512x512_1_0_0_1_n_n.rhsIdx_val_of_single rfl j c
  r1 := fun j c => by
    unfold DotDims.rhsIdx
    rw [dif_neg (show ¬(1 : Fin 2) ∈ Cert.KernelIdeal.dot_S512x512_S512x512_S512x512_1_0_0_1_n_n.rhsBatch by decide), dif_pos (show (1 : Fin 2) ∈ Cert.KernelIdeal.dot_S512x512_S512x512_S512x512_1_0_0_1_n_n.rhsNonContracting by decide)]
    rfl

/-- The kernel's product 512x512 by 512x128 (result 512x128). -/
theorem plainK_512c : Plain Cert.KernelIdeal.dot_S512x512_S512x128_S512x128_1_0_0_1_n_n where
  rank := rfl
  size := rfl
  l0 := fun j c => by
    unfold DotDims.lhsIdx
    rw [dif_neg (show ¬(0 : Fin 2) ∈ Cert.KernelIdeal.dot_S512x512_S512x128_S512x128_1_0_0_1_n_n.lhsBatch by decide), dif_pos (show (0 : Fin 2) ∈ Cert.KernelIdeal.dot_S512x512_S512x128_S512x128_1_0_0_1_n_n.lhsNonContracting by decide)]
    rfl
  l1 := fun j c => Cert.KernelIdeal.dot_S512x512_S512x128_S512x128_1_0_0_1_n_n.lhsIdx_val_of_single rfl j c
  r0 := fun j c => Cert.KernelIdeal.dot_S512x512_S512x128_S512x128_1_0_0_1_n_n.rhsIdx_val_of_single rfl j c
  r1 := fun j c => by
    unfold DotDims.rhsIdx
    rw [dif_neg (show ¬(1 : Fin 2) ∈ Cert.KernelIdeal.dot_S512x512_S512x128_S512x128_1_0_0_1_n_n.rhsBatch by decide), dif_pos (show (1 : Fin 2) ∈ Cert.KernelIdeal.dot_S512x512_S512x128_S512x128_1_0_0_1_n_n.rhsNonContracting by decide)]
    rfl

/-- The reference's product 32768x384 by 384x768 (result 32768x768). -/
theorem plainR_v10 : Plain Cert.ReferenceIdeal.dot_S32768x384_S384x768_S32768x768_1_0_0_1_n_n :=
  ⟨rfl, rfl, Cert.ReferenceIdeal.Read.lhs_main_v10_0, Cert.ReferenceIdeal.Read.lhs_main_v10_1, Cert.ReferenceIdeal.Read.rhs_main_v10_0, Cert.ReferenceIdeal.Read.rhs_main_v10_1⟩

/-- The reference's product 32768x256 by 256x512 (result 32768x512). -/
theorem plainR_v22 : Plain Cert.ReferenceIdeal.dot_S32768x256_S256x512_S32768x512_1_0_0_1_n_n :=
  ⟨rfl, rfl, Cert.ReferenceIdeal.Read.lhs_main_v22_0, Cert.ReferenceIdeal.Read.lhs_main_v22_1, Cert.ReferenceIdeal.Read.rhs_main_v22_0, Cert.ReferenceIdeal.Read.rhs_main_v22_1⟩

/-- The reference's product 32768x256 by 256x256 (result 32768x256). -/
theorem plainR_v44 : Plain Cert.ReferenceIdeal.dot_S32768x256_S256x256_S32768x256_1_0_0_1_n_n :=
  ⟨rfl, rfl, Cert.ReferenceIdeal.Read.lhs_main_v44_0, Cert.ReferenceIdeal.Read.lhs_main_v44_1, Cert.ReferenceIdeal.Read.rhs_main_v44_0, Cert.ReferenceIdeal.Read.rhs_main_v44_1⟩

/-- The reference's product 32768x256 by 256x128 (result 32768x128). -/
theorem plainR_v57 : Plain Cert.ReferenceIdeal.dot_S32768x256_S256x128_S32768x128_1_0_0_1_n_n :=
  ⟨rfl, rfl, Cert.ReferenceIdeal.Read.lhs_main_v57_0, Cert.ReferenceIdeal.Read.lhs_main_v57_1, Cert.ReferenceIdeal.Read.rhs_main_v57_0, Cert.ReferenceIdeal.Read.rhs_main_v57_1⟩

/-- The reference's product 32768x80 by 80x1536 (result 32768x1536). -/
theorem plainR_v70 : Plain Cert.ReferenceIdeal.dot_S32768x80_S80x1536_S32768x1536_1_0_0_1_n_n :=
  ⟨rfl, rfl, Cert.ReferenceIdeal.Read.lhs_main_v70_0, Cert.ReferenceIdeal.Read.lhs_main_v70_1, Cert.ReferenceIdeal.Read.rhs_main_v70_0, Cert.ReferenceIdeal.Read.rhs_main_v70_1⟩

/-- The reference's product 32768x512 by 512x1024 (result 32768x1024). -/
theorem plainR_v82 : Plain Cert.ReferenceIdeal.dot_S32768x512_S512x1024_S32768x1024_1_0_0_1_n_n :=
  ⟨rfl, rfl, Cert.ReferenceIdeal.Read.lhs_main_v82_0, Cert.ReferenceIdeal.Read.lhs_main_v82_1, Cert.ReferenceIdeal.Read.rhs_main_v82_0, Cert.ReferenceIdeal.Read.rhs_main_v82_1⟩

/-- The reference's product 32768x512 by 512x512 (result 32768x512). -/
theorem plainR_v104 : Plain Cert.ReferenceIdeal.dot_S32768x512_S512x512_S32768x512_1_0_0_1_n_n :=
  ⟨rfl, rfl, Cert.ReferenceIdeal.Read.lhs_main_v104_0, Cert.ReferenceIdeal.Read.lhs_main_v104_1, Cert.ReferenceIdeal.Read.rhs_main_v104_0, Cert.ReferenceIdeal.Read.rhs_main_v104_1⟩

/-- The reference's product 32768x512 by 512x128 (result 32768x128). -/
theorem plainR_v122 : Plain Cert.ReferenceIdeal.dot_S32768x512_S512x128_S32768x128_1_0_0_1_n_n :=
  ⟨rfl, rfl, Cert.ReferenceIdeal.Read.lhs_main_v122_0, Cert.ReferenceIdeal.Read.lhs_main_v122_1, Cert.ReferenceIdeal.Read.rhs_main_v122_0, Cert.ReferenceIdeal.Read.rhs_main_v122_1⟩

end Cert.Bridge

end
-- ==== Proof.StageCon.lean ====
/-
  The controller cell, the posterior head and the generator's input, stage by stage.

  Each stage of the kernel body, computed from a block of rows, is related row by row to the stage of the reference
  computed from the whole arrays: the input projections  x·W_ihᵀ + b_ih  and  h·W_zrᵀ + b_zr, the two gates
  σ(x_z + h_z), σ(x_r + h_r), the candidate  tanh(x_n + (r∘h)·W_nᵀ + b_n)  — where the kernel adds the bias to the
  product first and the reference adds it last, the same extended real because addition is associative —, the clipped
  update  min(5, max(−5, z∘h + (1 − z)∘n)), the posterior parameters  h'·W_coᵀ + b_co, their mean and the
  standard deviation  exp(½·logvar), the sample  mean + std∘ε  and its concatenation with the external input.
  Every proof follows the two program texts operation by operation.
-/
import proofs.«131115_j6021544149148_2_alg».proof.Proof.Gen.KernelIdeal.Skeleton
import proofs.«131115_j6021544149148_2_alg».proof.Proof.Gen.ReferenceIdeal.Read
import proofs.«131115_j6021544149148_2_alg».proof.Proof.LibRowRel
import proofs.«131115_j6021544149148_2_alg».proof.Proof.LibRowDot
import proofs.«131115_j6021544149148_2_alg».proof.Proof.Dots

noncomputable section

namespace Cert.Bridge

open Idealize.ShloMosaic Idealize.ShloMosaic.ValueIdx Cert.LibRowRel
open Cert.KernelIdeal.Gen Cert.ReferenceIdeal.Read

variable (ρ : Fin 512 → Fin 32768)

/-- The external input: columns 256 … 271 of the input block. -/
theorem ext_rel (A0 : FVec Ideal ⟨2, ![32768, 272]⟩ .f32) (x0 : FVec Ideal ⟨2, ![512, 272]⟩ .f32) (h0 : Rel ρ x0 A0) :
    Rel ρ (k0_pay2 x0) (val_main_v7 (F := Ideal) A0) := by
  unfold k0_pay2 val_main_v7
  exact h0.slice 256 _ _

/-- The generator's previous state: columns 0 … 511 of the state block. -/
theorem genState_rel (A1 : FVec Ideal ⟨2, ![32768, 1104]⟩ .f32) (x1 : FVec Ideal ⟨2, ![512, 1104]⟩ .f32) (h1 : Rel ρ x1 A1) :
    Rel ρ (k0_pay3 x1) (val_main_v0 (F := Ideal) A1) := by
  unfold k0_pay3 val_main_v0
  exact h1.slice 0 _ _

/-- The controller's previous state: columns 512 … 767 of the state block. -/
theorem conState_rel (A1 : FVec Ideal ⟨2, ![32768, 1104]⟩ .f32) (x1 : FVec Ideal ⟨2, ![512, 1104]⟩ .f32) (h1 : Rel ρ x1 A1) :
    Rel ρ (k0_pay4 x1) (val_main_v1 (F := Ideal) A1) := by
  unfold k0_pay4 val_main_v1
  exact h1.slice 512 _ _

/-- The controller's input projection [ci, factor]·W_ihᵀ + b_ih. -/
theorem conX_rel (A0 : FVec Ideal ⟨2, ![32768, 272]⟩ .f32) (A1 : FVec Ideal ⟨2, ![32768, 1104]⟩ .f32) (A7 : FVec Ideal ⟨2, ![768, 384]⟩ .f32) (A8 : FVec Ideal ⟨1, ![768]⟩ .f32) (x0 : FVec Ideal ⟨2, ![512, 272]⟩ .f32) (x1 : FVec Ideal ⟨2, ![512, 1104]⟩ .f32) (x9 : FVec Ideal ⟨2, ![384, 768]⟩ .bf16) (x10 : FVec Ideal ⟨2, ![1, 768]⟩ .f32) (h0 : Rel ρ x0 A0) (h1 : Rel ρ x1 A1) (h9 : ∀ i, (x9 i : EReal) = (val_main_v9 (F := Ideal) A7) i) (h10 : ∀ i, (x10 i : EReal) = (val_main_v11 (F := Ideal) A8) i) :
    Rel ρ (k0_pay7 x0 x1 x9 x10) (val_main_v13 (F := Ideal) A0 A1 A7 A8) := by
  unfold k0_pay7 val_main_v13 val_main_v10 val_main_v12 val_main_v8 val_main_v6 val_main_v5
  exact Rel.addf (Rel.matmul plainK_384 plainR_v10
      (Rel.truncf_left _ (Rel.concat2 (h0.slice 0 _ _) (h1.slice 976 _ _) _ _)) (castSelf h9 _) none none)
    (Rel.biasRow (castSelf h10 _) _ _)

/-- Its third part x_n. -/
theorem conXn_rel (A0 : FVec Ideal ⟨2, ![32768, 272]⟩ .f32) (A1 : FVec Ideal ⟨2, ![32768, 1104]⟩ .f32) (A7 : FVec Ideal ⟨2, ![768, 384]⟩ .f32) (A8 : FVec Ideal ⟨1, ![768]⟩ .f32) (x0 : FVec Ideal ⟨2, ![512, 272]⟩ .f32) (x1 : FVec Ideal ⟨2, ![512, 1104]⟩ .f32) (x9 : FVec Ideal ⟨2, ![384, 768]⟩ .bf16) (x10 : FVec Ideal ⟨2, ![1, 768]⟩ .f32) (h0 : Rel ρ x0 A0) (h1 : Rel ρ x1 A1) (h9 : ∀ i, (x9 i : EReal) = (val_main_v9 (F := Ideal) A7) i) (h10 : ∀ i, (x10 i : EReal) = (val_main_v11 (F := Ideal) A8) i) :
    Rel ρ (k0_pay8 x0 x1 x9 x10) (val_main_v16 (F := Ideal) A0 A1 A7 A8) := by
  unfold k0_pay8 val_main_v16
  exact (conX_rel ρ A0 A1 A7 A8 x0 x1 x9 x10 h0 h1 h9 h10).slice 512 _ _

/-- The controller's state projection h·W_zrᵀ + b_zr. -/
theorem conH_rel (A1 : FVec Ideal ⟨2, ![32768, 1104]⟩ .f32) (A9 : FVec Ideal ⟨2, ![768, 256]⟩ .f32) (A10 : FVec Ideal ⟨1, ![768]⟩ .f32) (x1 : FVec Ideal ⟨2, ![512, 1104]⟩ .f32) (x11 : FVec Ideal ⟨2, ![256, 512]⟩ .bf16) (x12 : FVec Ideal ⟨2, ![1, 512]⟩ .f32) (h1 : Rel ρ x1 A1) (h11 : ∀ i, (x11 i : EReal) = (val_main_v21 (F := Ideal) A9) i) (h12 : ∀ i, (x12 i : EReal) = (val_main_v23 (F := Ideal) A10) i) :
    Rel ρ (k0_pay9 x1 x11 x12) (val_main_v25 (F := Ideal) A1 A9 A10) := by
  unfold k0_pay9 val_main_v25 val_main_v22 val_main_v24
  exact Rel.addf (Rel.matmul plainK_256a plainR_v22 (Rel.truncf_left _ (conState_rel ρ A1 x1 h1)) (castSelf h11 _) none none)
    (Rel.biasRow (castSelf h12 _) _ _)

/-- The update gate z = σ(x_z + h_z). -/
theorem conZ_rel (A0 : FVec Ideal ⟨2, ![32768, 272]⟩ .f32) (A1 : FVec Ideal ⟨2, ![32768, 1104]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (x0 : FVec Ideal ⟨2, ![512, 272]⟩ .f32) (x1 : FVec Ideal ⟨2, ![512, 1104]⟩ .f32) (x9 : FVec Ideal ⟨2, ![384, 768]⟩ .bf16) (x10 : FVec Ideal ⟨2, ![1, 768]⟩ .f32) (x11 : FVec Ideal ⟨2, ![256, 512]⟩ .bf16) (x12 : FVec Ideal ⟨2, ![1, 512]⟩ .f32) (h0 : Rel ρ x0 A0) (h1 : Rel ρ x1 A1) (h9 : ∀ i, (x9 i : EReal) = (val_main_v9 (F := Ideal) A7) i) (h10 : ∀ i, (x10 i : EReal) = (val_main_v11 (F := Ideal) A8) i) (h11 : ∀ i, (x11 i : EReal) = (val_main_v21 (F := Ideal) A9) i) (h12 : ∀ i, (x12 i : EReal) = (val_main_v23 (F := Ideal) A10) i) :
    Rel ρ (k0_pay10 x0 x1 x9 x10 x11 x12) (val_main_v34 (F := Ideal) A0 A1 A7 A8 A9 A10) := by
  unfold k0_pay10 val_main_v34 val_main_v33 val_main_cst_0 val_main_v32 val_main_v31 val_main_cst val_main_v30 val_main_v29
    val_main_v28 val_main_v14 val_main_v26
  exact Rel.logistic (Rel.addf ((conX_rel ρ A0 A1 A7 A8 x0 x1 x9 x10 h0 h1 h9 h10).slice 0 _ _)
    ((conH_rel ρ A1 A9 A10 x1 x11 x12 h1 h11 h12).slice 0 _ _)) _ _

/-- The reset gate applied to the state, r∘h with r = σ(x_r + h_r). -/
theorem conRH_rel (A0 : FVec Ideal ⟨2, ![32768, 272]⟩ .f32) (A1 : FVec Ideal ⟨2, ![32768, 1104]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (x0 : FVec Ideal ⟨2, ![512, 272]⟩ .f32) (x1 : FVec Ideal ⟨2, ![512, 1104]⟩ .f32) (x9 : FVec Ideal ⟨2, ![384, 768]⟩ .bf16) (x10 : FVec Ideal ⟨2, ![1, 768]⟩ .f32) (x11 : FVec Ideal ⟨2, ![256, 512]⟩ .bf16) (x12 : FVec Ideal ⟨2, ![1, 512]⟩ .f32) (h0 : Rel ρ x0 A0) (h1 : Rel ρ x1 A1) (h9 : ∀ i, (x9 i : EReal) = (val_main_v9 (F := Ideal) A7) i) (h10 : ∀ i, (x10 i : EReal) = (val_main_v11 (F := Ideal) A8) i) (h11 : ∀ i, (x11 i : EReal) = (val_main_v21 (F := Ideal) A9) i) (h12 : ∀ i, (x12 i : EReal) = (val_main_v23 (F := Ideal) A10) i) :
    Rel ρ (k0_pay11 x0 x1 x9 x10 x11 x12) (val_main_v42 (F := Ideal) A0 A1 A7 A8 A9 A10) := by
  unfold k0_pay11 val_main_v42 val_main_v41 val_main_v40 val_main_cst_2 val_main_v39 val_main_v38 val_main_cst_1 val_main_v37
    val_main_v36 val_main_v35 val_main_v15 val_main_v27
  exact Rel.mulf (Rel.logistic (Rel.addf ((conX_rel ρ A0 A1 A7 A8 x0 x1 x9 x10 h0 h1 h9 h10).slice 256 _ _)
    ((conH_rel ρ A1 A9 A10 x1 x11 x12 h1 h11 h12).slice 256 _ _)) _ _) (conState_rel ρ A1 x1 h1)

/-- The controller's new state: the candidate tanh(x_n + (r∘h)·W_nᵀ + b_n), the convex update and the clip to [−5, 5].
    The kernel adds b_n to the product before adding x_n, the reference after: one sum, by associativity. -/
theorem conNew_rel (A0 : FVec Ideal ⟨2, ![32768, 272]⟩ .f32) (A1 : FVec Ideal ⟨2, ![32768, 1104]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (v6 : FVec Ideal ⟨2, ![512, 256]⟩ .f32) (v18 : FVec Ideal ⟨2, ![256, 256]⟩ .bf16) (v20 : FVec Ideal ⟨2, ![1, 256]⟩ .f32) (v27 v35 v38 : FVec Ideal ⟨2, ![512, 256]⟩ .f32)
    (r6 : Rel ρ v6 (val_main_v1 (F := Ideal) A1)) (r18 : ∀ i, (v18 i : EReal) = (val_main_v43 (F := Ideal) A9) i) (r20 : ∀ i, (v20 i : EReal) = (val_main_v46 (F := Ideal) A10) i)
    (r27 : Rel ρ v27 (val_main_v16 (F := Ideal) A0 A1 A7 A8)) (r35 : Rel ρ v35 (val_main_v34 (F := Ideal) A0 A1 A7 A8 A9 A10)) (r38 : Rel ρ v38 (val_main_v42 (F := Ideal) A0 A1 A7 A8 A9 A10)) :
    Rel ρ (k0_pay12 v6 v18 v20 v27 v35 v38) (val_main_v55 (F := Ideal) A0 A1 A7 A8 A9 A10) := by
  unfold k0_pay12 val_main_v55 val_main_call0_v4 val_main_call0_v3 val_main_cst_5 val_main_call0_v2 val_main_call0_v1
    val_main_call0_v0 val_main_cst_4 val_main_v54 val_main_v50 val_main_v53 val_main_v52 val_main_v51 val_main_cst_3
    val_main_v49 val_main_v48 val_main_v45 val_main_v44 val_main_v47
  exact Rel.minimumf (Rel.splat _ _) (Rel.maximumf (Rel.splat _ _) (Rel.addf (Rel.mulf r35 r6)
    (Rel.mulf (Rel.subf (Rel.splat _ _) r35) (Rel.tanh (Rel.addf_assoc r27
      (Rel.matmul plainK_256b plainR_v44 (Rel.truncf_left _ r38) r18 none none) (Rel.biasRow r20 _ _))))))

/-- The posterior's parameters h'·W_coᵀ + b_co. -/
theorem coParams_rel (A0 : FVec Ideal ⟨2, ![32768, 272]⟩ .f32) (A1 : FVec Ideal ⟨2, ![32768, 1104]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (v6 : FVec Ideal ⟨2, ![512, 256]⟩ .f32) (v18 : FVec Ideal ⟨2, ![256, 256]⟩ .bf16) (v20 : FVec Ideal ⟨2, ![1, 256]⟩ .f32) (v27 v35 v38 : FVec Ideal ⟨2, ![512, 256]⟩ .f32) (x15 : FVec Ideal ⟨2, ![256, 128]⟩ .bf16) (x16 : FVec Ideal ⟨2, ![1, 128]⟩ .f32) (h15 : ∀ i, (x15 i : EReal) = (val_main_v56 (F := Ideal) A11) i) (h16 : ∀ i, (x16 i : EReal) = (val_main_v58 (F := Ideal) A12) i)
    (r53 : Rel ρ (k0_pay12 v6 v18 v20 v27 v35 v38) (val_main_v55 (F := Ideal) A0 A1 A7 A8 A9 A10)) :
    Rel ρ (k0_pay13 v6 v18 v20 v27 v35 v38 x15 x16) (val_main_v60 (F := Ideal) A0 A1 A7 A8 A9 A10 A11 A12) := by
  unfold k0_pay13 val_main_v60 val_main_v57 val_main_v59
  exact Rel.addf (Rel.matmul plainK_256c plainR_v57 (Rel.truncf_left _ r53) (castSelf h15 _) none none)
    (Rel.biasRow (castSelf h16 _) _ _)

/-- The posterior's mean: the first 64 columns. -/
theorem coMean_rel (A0 : FVec Ideal ⟨2, ![32768, 272]⟩ .f32) (A1 : FVec Ideal ⟨2, ![32768, 1104]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (v6 : FVec Ideal ⟨2, ![512, 256]⟩ .f32) (v18 : FVec Ideal ⟨2, ![256, 256]⟩ .bf16) (v20 : FVec Ideal ⟨2, ![1, 256]⟩ .f32) (v27 v35 v38 : FVec Ideal ⟨2, ![512, 256]⟩ .f32) (x15 : FVec Ideal ⟨2, ![256, 128]⟩ .bf16) (x16 : FVec Ideal ⟨2, ![1, 128]⟩ .f32)
    (r61 : Rel ρ (k0_pay13 v6 v18 v20 v27 v35 v38 x15 x16) (val_main_v60 (F := Ideal) A0 A1 A7 A8 A9 A10 A11 A12)) :
    Rel ρ (k0_pay14 v6 v18 v20 v27 v35 v38 x15 x16) (val_main_v61 (F := Ideal) A0 A1 A7 A8 A9 A10 A11 A12) := by
  unfold k0_pay14 val_main_v61
  exact r61.slice 0 _ _

/-- The posterior's standard deviation exp(½·logvar) of the last 64 columns. -/
theorem coStd_rel (A0 : FVec Ideal ⟨2, ![32768, 272]⟩ .f32) (A1 : FVec Ideal ⟨2, ![32768, 1104]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (v6 : FVec Ideal ⟨2, ![512, 256]⟩ .f32) (v18 : FVec Ideal ⟨2, ![256, 256]⟩ .bf16) (v20 : FVec Ideal ⟨2, ![1, 256]⟩ .f32) (v27 v35 v38 : FVec Ideal ⟨2, ![512, 256]⟩ .f32) (x15 : FVec Ideal ⟨2, ![256, 128]⟩ .bf16) (x16 : FVec Ideal ⟨2, ![1, 128]⟩ .f32)
    (r61 : Rel ρ (k0_pay13 v6 v18 v20 v27 v35 v38 x15 x16) (val_main_v60 (F := Ideal) A0 A1 A7 A8 A9 A10 A11 A12)) :
    Rel ρ (k0_pay15 v6 v18 v20 v27 v35 v38 x15 x16) (val_main_v65 (F := Ideal) A0 A1 A7 A8 A9 A10 A11 A12) := by
  unfold k0_pay15 val_main_v65 val_main_v64 val_main_v63 val_main_cst_6 val_main_v62
  exact Rel.exp (Rel.mulf (Rel.splat _ _) (r61.slice 64 _ _))

/-- The generator's input: the sample mean + std∘ε beside the external input. -/
theorem genIn_rel (A0 : FVec Ideal ⟨2, ![32768, 272]⟩ .f32) (A1 : FVec Ideal ⟨2, ![32768, 1104]⟩ .f32) (A2 : FVec Ideal ⟨2, ![32768, 64]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (x2 : FVec Ideal ⟨2, ![512, 64]⟩ .f32) (v4 : FVec Ideal ⟨2, ![512, 16]⟩ .f32) (v6 : FVec Ideal ⟨2, ![512, 256]⟩ .f32) (v18 : FVec Ideal ⟨2, ![256, 256]⟩ .bf16) (v20 : FVec Ideal ⟨2, ![1, 256]⟩ .f32) (v27 v35 v38 : FVec Ideal ⟨2, ![512, 256]⟩ .f32) (x15 : FVec Ideal ⟨2, ![256, 128]⟩ .bf16) (x16 : FVec Ideal ⟨2, ![1, 128]⟩ .f32) (h2 : Rel ρ x2 A2)
    (r4 : Rel ρ v4 (val_main_v7 (F := Ideal) A0))
    (r62 : Rel ρ (k0_pay14 v6 v18 v20 v27 v35 v38 x15 x16) (val_main_v61 (F := Ideal) A0 A1 A7 A8 A9 A10 A11 A12))
    (r66 : Rel ρ (k0_pay15 v6 v18 v20 v27 v35 v38 x15 x16) (val_main_v65 (F := Ideal) A0 A1 A7 A8 A9 A10 A11 A12)) :
    Rel ρ (k0_pay16 x2 v4 v6 v18 v20 v27 v35 v38 x15 x16) (val_main_v68 (F := Ideal) A0 A1 A2 A7 A8 A9 A10 A11 A12) := by
  unfold k0_pay16 val_main_v68 val_main_v67 val_main_v66
  exact Rel.concat2 (Rel.addf r62 (Rel.mulf r66 h2)) r4 _ _

end Cert.Bridge

end
-- ==== Proof.StageGen.lean ====
/-
  The generator cell and the readout, stage by stage, and the whole stored block.

  The kernel's generator cell is the controller's with other extents: the projections  u·W_ihᵀ + b_ih  of the generator's
  input u and  g·W_zrᵀ + b_zr  of its previous state g, the gates, the candidate (bias added to the product first in
  the kernel, last in the reference: associativity of the sum), the clipped update g'; then the readout  g'·Fᵀ  with F the
  readout matrix with rows scaled to unit norm, which both programs compute on the host by the same operations and
  which enters here only as the right operand, equal on both sides.  The stored block is the six pieces
  [g', h', mean, std, u, g'·Fᵀ] side by side, as is the reference's result.
-/
import proofs.«131115_j6021544149148_2_alg».proof.Proof.Gen.KernelIdeal.Skeleton
import proofs.«131115_j6021544149148_2_alg».proof.Proof.Gen.ReferenceIdeal.Read
import proofs.«131115_j6021544149148_2_alg».proof.Proof.LibRowRel
import proofs.«131115_j6021544149148_2_alg».proof.Proof.LibRowDot
import proofs.«131115_j6021544149148_2_alg».proof.Proof.Dots

noncomputable section

namespace Cert.Bridge

open Idealize.ShloMosaic Idealize.ShloMosaic.ValueIdx Cert.LibRowRel
open Cert.KernelIdeal.Gen Cert.ReferenceIdeal.Read

open Cert.KernelIdeal

variable (ρ : Fin 512 → Fin 32768)

/-! The kernel's terms, named as the program text composes them. -/

/-- u·W_ihᵀ + b_ih. -/
def gX (v69 : FVec Ideal ⟨2, ![512, 80]⟩ .f32) (v71 : FVec Ideal ⟨2, ![80, 1536]⟩ .bf16) (v73 : FVec Ideal ⟨2, ![1, 1536]⟩ .f32) :
    FVec Ideal ⟨2, ![512, 1536]⟩ .f32 :=
  addf (matmul dot_S512x80_S80x1536_S512x1536_1_0_0_1_n_n none (truncf .bf16 v69 bitsLt_bf16_f32) v71 (constant (F := Ideal) S512x1536 .f32 0x00000000#32))
    (broadcastTo S512x1536 v73 broadcasts_S1x1536_S512x1536)

/-- g·W_zrᵀ + b_zr. -/
def gH (v5 : FVec Ideal ⟨2, ![512, 512]⟩ .f32) (v75 : FVec Ideal ⟨2, ![512, 1024]⟩ .bf16) (v77 : FVec Ideal ⟨2, ![1, 1024]⟩ .f32) :
    FVec Ideal ⟨2, ![512, 1024]⟩ .f32 :=
  addf (matmul dot_S512x512_S512x1024_S512x1024_1_0_0_1_n_n none (truncf .bf16 v5 bitsLt_bf16_f32) v75 (constant (F := Ideal) S512x1024 .f32 0x00000000#32))
    (broadcastTo S512x1024 v77 broadcasts_S1x1024_S512x1024)

/-- The update gate σ(x_z + h_z). -/
def gZ (X : FVec Ideal ⟨2, ![512, 1536]⟩ .f32) (H : FVec Ideal ⟨2, ![512, 1024]⟩ .f32) : FVec Ideal ⟨2, ![512, 512]⟩ .f32 :=
  logistic (addf (extractStridedSlice S512x512 ![0, 0] X slices_S512x1536_o0_0_S512x512)
    (extractStridedSlice S512x512 ![0, 0] H slices_S512x1024_o0_0_S512x512))

/-- The reset gate applied to the state, σ(x_r + h_r)∘g. -/
def gRH (X : FVec Ideal ⟨2, ![512, 1536]⟩ .f32) (H : FVec Ideal ⟨2, ![512, 1024]⟩ .f32) (v5 : FVec Ideal ⟨2, ![512, 512]⟩ .f32) :
    FVec Ideal ⟨2, ![512, 512]⟩ .f32 :=
  mulf (logistic (addf (extractStridedSlice S512x512 ![0, 512] X slices_S512x1536_o0_512_S512x512)
    (extractStridedSlice S512x512 ![0, 512] H slices_S512x1024_o0_512_S512x512))) v5

/-- The clipped update min(5, max(−5, z∘g + (1 − z)∘tanh(x_n + ((r∘g)·W_nᵀ + b_n)))). -/
def gNew (X : FVec Ideal ⟨2, ![512, 1536]⟩ .f32) (Z RH v5 : FVec Ideal ⟨2, ![512, 512]⟩ .f32)
    (v78 : FVec Ideal ⟨2, ![512, 512]⟩ .bf16) (v80 : FVec Ideal ⟨2, ![1, 512]⟩ .f32) : FVec Ideal ⟨2, ![512, 512]⟩ .f32 :=
  minimumf (broadcast S512x512 (Scalar.ofBits (F := Ideal) .f32 0x40A00000#32))
    (maximumf (broadcast S512x512 (Scalar.ofBits (F := Ideal) .f32 0xC0A00000#32))
      (addf (mulf Z v5)
        (mulf (subf (broadcast S512x512 (Scalar.ofBits (F := Ideal) .f32 0x3F800000#32)) Z)
          (tanh (addf (extractStridedSlice S512x512 ![0, 1024] X slices_S512x1536_o0_1024_S512x512)
            (addf (matmul dot_S512x512_S512x512_S512x512_1_0_0_1_n_n none (truncf .bf16 RH bitsLt_bf16_f32)
                (shapeCast S512x512 v78 shapeCasts_S512x512_S512x512) (constant (F := Ideal) S512x512 .f32 0x00000000#32))
              (broadcastTo S512x512 (shapeCast S1x512 v80 shapeCasts_S1x512_S1x512) broadcasts_S1x512_S512x512)))))))

/-- The readout g'·Fᵀ. -/
def gFac (G : FVec Ideal ⟨2, ![512, 512]⟩ .f32) (v116 : FVec Ideal ⟨2, ![512, 128]⟩ .bf16) : FVec Ideal ⟨2, ![512, 128]⟩ .f32 :=
  matmul dot_S512x512_S512x128_S512x128_1_0_0_1_n_n none (truncf .bf16 G bitsLt_bf16_f32)
    (shapeCast S512x128 v116 shapeCasts_S512x128_S512x128) (constant (F := Ideal) S512x128 .f32 0x00000000#32)

/-- The body's last value is the six pieces side by side. -/
theorem k0_pay1_eq (v5 : FVec Ideal ⟨2, ![512, 512]⟩ .f32) (v53 : FVec Ideal ⟨2, ![512, 256]⟩ .f32) (v62 v66 : FVec Ideal ⟨2, ![512, 64]⟩ .f32) (v69 : FVec Ideal ⟨2, ![512, 80]⟩ .f32) (v71 : FVec Ideal ⟨2, ![80, 1536]⟩ .bf16) (v73 : FVec Ideal ⟨2, ![1, 1536]⟩ .f32) (v75 : FVec Ideal ⟨2, ![512, 1024]⟩ .bf16) (v77 : FVec Ideal ⟨2, ![1, 1024]⟩ .f32) (v78 : FVec Ideal ⟨2, ![512, 512]⟩ .bf16) (v80 : FVec Ideal ⟨2, ![1, 512]⟩ .f32) (v116 : FVec Ideal ⟨2, ![512, 128]⟩ .bf16) :
    k0_pay1 (F := Ideal) v5 v53 v62 v66 v69 v71 v73 v75 v77 v78 v80 v116
      = concatenate S512x1104 1
          [⟨S512x512, gNew (gX v69 v71 v73) (gZ (gX v69 v71 v73) (gH v5 v75 v77)) (gRH (gX v69 v71 v73) (gH v5 v75 v77) v5) v5 v78 v80⟩,
           ⟨S512x256, v53⟩, ⟨S512x64, v62⟩, ⟨S512x64, v66⟩, ⟨S512x80, v69⟩,
           ⟨S512x128, gFac (gNew (gX v69 v71 v73) (gZ (gX v69 v71 v73) (gH v5 v75 v77)) (gRH (gX v69 v71 v73) (gH v5 v75 v77) v5) v5 v78 v80) v116⟩]
          concatenates_S512x512_S512x256_S512x64_S512x64_S512x80_S512x128_S512x1104_d1 := rfl

/-! Each against the reference. -/

theorem gX_rel (A0 : FVec Ideal ⟨2, ![32768, 272]⟩ .f32) (A1 : FVec Ideal ⟨2, ![32768, 1104]⟩ .f32) (A2 : FVec Ideal ⟨2, ![32768, 64]⟩ .f32) (A3 : FVec Ideal ⟨2, ![1536, 80]⟩ .f32) (A4 : FVec Ideal ⟨1, ![1536]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (v69 : FVec Ideal ⟨2, ![512, 80]⟩ .f32) (v71 : FVec Ideal ⟨2, ![80, 1536]⟩ .bf16) (v73 : FVec Ideal ⟨2, ![1, 1536]⟩ .f32)
    (r69 : Rel ρ v69 (val_main_v68 (F := Ideal) A0 A1 A2 A7 A8 A9 A10 A11 A12)) (w71 : ∀ i, (v71 i : EReal) = (val_main_v69 (F := Ideal) A3) i) (w73 : ∀ i, (v73 i : EReal) = (val_main_v71 (F := Ideal) A4) i) :
    Rel ρ (gX v69 v71 v73) (val_main_v73 (F := Ideal) A0 A1 A2 A3 A4 A7 A8 A9 A10 A11 A12) := by
  unfold gX val_main_v73 val_main_v70 val_main_v72
  exact Rel.addf (Rel.matmul plainK_80 plainR_v70 (Rel.truncf_left _ r69) w71 none none) (Rel.biasRow w73 _ _)

theorem gH_rel (A1 : FVec Ideal ⟨2, ![32768, 1104]⟩ .f32) (A5 : FVec Ideal ⟨2, ![1536, 512]⟩ .f32) (A6 : FVec Ideal ⟨1, ![1536]⟩ .f32) (v5 : FVec Ideal ⟨2, ![512, 512]⟩ .f32) (v75 : FVec Ideal ⟨2, ![512, 1024]⟩ .bf16) (v77 : FVec Ideal ⟨2, ![1, 1024]⟩ .f32)
    (r5 : Rel ρ v5 (val_main_v0 (F := Ideal) A1)) (w75 : ∀ i, (v75 i : EReal) = (val_main_v81 (F := Ideal) A5) i) (w77 : ∀ i, (v77 i : EReal) = (val_main_v83 (F := Ideal) A6) i) :
    Rel ρ (gH v5 v75 v77) (val_main_v85 (F := Ideal) A1 A5 A6) := by
  unfold gH val_main_v85 val_main_v82 val_main_v84
  exact Rel.addf (Rel.matmul plainK_512a plainR_v82 (Rel.truncf_left _ r5) w75 none none) (Rel.biasRow w77 _ _)

theorem gZ_rel (A0 : FVec Ideal ⟨2, ![32768, 272]⟩ .f32) (A1 : FVec Ideal ⟨2, ![32768, 1104]⟩ .f32) (A2 : FVec Ideal ⟨2, ![32768, 64]⟩ .f32) (A3 : FVec Ideal ⟨2, ![1536, 80]⟩ .f32) (A4 : FVec Ideal ⟨1, ![1536]⟩ .f32) (A5 : FVec Ideal ⟨2, ![1536, 512]⟩ .f32) (A6 : FVec Ideal ⟨1, ![1536]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (X : FVec Ideal ⟨2, ![512, 1536]⟩ .f32) (H : FVec Ideal ⟨2, ![512, 1024]⟩ .f32)
    (rX : Rel ρ X (val_main_v73 (F := Ideal) A0 A1 A2 A3 A4 A7 A8 A9 A10 A11 A12)) (rH : Rel ρ H (val_main_v85 (F := Ideal) A1 A5 A6)) :
    Rel ρ (gZ X H) (val_main_v94 (F := Ideal) A0 A1 A2 A3 A4 A5 A6 A7 A8 A9 A10 A11 A12) := by
  unfold gZ val_main_v94 val_main_v93 val_main_cst_8 val_main_v92 val_main_v91 val_main_cst_7 val_main_v90 val_main_v89 val_main_v88
    val_main_v74 val_main_v86
  exact Rel.logistic (Rel.addf (rX.slice 0 _ _) (rH.slice 0 _ _)) _ _

theorem gRH_rel (A0 : FVec Ideal ⟨2, ![32768, 272]⟩ .f32) (A1 : FVec Ideal ⟨2, ![32768, 1104]⟩ .f32) (A2 : FVec Ideal ⟨2, ![32768, 64]⟩ .f32) (A3 : FVec Ideal ⟨2, ![1536, 80]⟩ .f32) (A4 : FVec Ideal ⟨1, ![1536]⟩ .f32) (A5 : FVec Ideal ⟨2, ![1536, 512]⟩ .f32) (A6 : FVec Ideal ⟨1, ![1536]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (X : FVec Ideal ⟨2, ![512, 1536]⟩ .f32) (H : FVec Ideal ⟨2, ![512, 1024]⟩ .f32) (v5 : FVec Ideal ⟨2, ![512, 512]⟩ .f32)
    (rX : Rel ρ X (val_main_v73 (F := Ideal) A0 A1 A2 A3 A4 A7 A8 A9 A10 A11 A12)) (rH : Rel ρ H (val_main_v85 (F := Ideal) A1 A5 A6)) (r5 : Rel ρ v5 (val_main_v0 (F := Ideal) A1)) :
    Rel ρ (gRH X H v5) (val_main_v102 (F := Ideal) A0 A1 A2 A3 A4 A5 A6 A7 A8 A9 A10 A11 A12) := by
  unfold gRH val_main_v102 val_main_v101 val_main_v100 val_main_cst_10 val_main_v99 val_main_v98 val_main_cst_9 val_main_v97 val_main_v96
    val_main_v95 val_main_v75 val_main_v87
  exact Rel.mulf (Rel.logistic (Rel.addf (rX.slice 512 _ _) (rH.slice 512 _ _)) _ _) r5

/-- The kernel adds b_n to the product before adding x_n, the reference after: one sum, by associativity. -/
theorem gNew_rel (A0 : FVec Ideal ⟨2, ![32768, 272]⟩ .f32) (A1 : FVec Ideal ⟨2, ![32768, 1104]⟩ .f32) (A2 : FVec Ideal ⟨2, ![32768, 64]⟩ .f32) (A3 : FVec Ideal ⟨2, ![1536, 80]⟩ .f32) (A4 : FVec Ideal ⟨1, ![1536]⟩ .f32) (A5 : FVec Ideal ⟨2, ![1536, 512]⟩ .f32) (A6 : FVec Ideal ⟨1, ![1536]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (X : FVec Ideal ⟨2, ![512, 1536]⟩ .f32) (Z RH v5 : FVec Ideal ⟨2, ![512, 512]⟩ .f32)
    (v78 : FVec Ideal ⟨2, ![512, 512]⟩ .bf16) (v80 : FVec Ideal ⟨2, ![1, 512]⟩ .f32)
    (rX : Rel ρ X (val_main_v73 (F := Ideal) A0 A1 A2 A3 A4 A7 A8 A9 A10 A11 A12)) (rZ : Rel ρ Z (val_main_v94 (F := Ideal) A0 A1 A2 A3 A4 A5 A6 A7 A8 A9 A10 A11 A12)) (rRH : Rel ρ RH (val_main_v102 (F := Ideal) A0 A1 A2 A3 A4 A5 A6 A7 A8 A9 A10 A11 A12)) (r5 : Rel ρ v5 (val_main_v0 (F := Ideal) A1))
    (w78 : ∀ i, (v78 i : EReal) = (val_main_v103 (F := Ideal) A5) i) (w80 : ∀ i, (v80 i : EReal) = (val_main_v106 (F := Ideal) A6) i) :
    Rel ρ (gNew X Z RH v5 v78 v80) (val_main_v115 (F := Ideal) A0 A1 A2 A3 A4 A5 A6 A7 A8 A9 A10 A11 A12) := by
  unfold gNew val_main_v115 val_main_call1_v4 val_main_call1_v3 val_main_cst_13 val_main_call1_v2 val_main_call1_v1
    val_main_call1_v0 val_main_cst_12 val_main_v114 val_main_v110 val_main_v113 val_main_v112 val_main_v111 val_main_cst_11
    val_main_v109 val_main_v108 val_main_v105 val_main_v104 val_main_v107 val_main_v76
  exact Rel.minimumf (Rel.splat _ _) (Rel.maximumf (Rel.splat _ _) (Rel.addf (Rel.mulf rZ r5)
    (Rel.mulf (Rel.subf (Rel.splat _ _) rZ) (Rel.tanh (Rel.addf_assoc (rX.slice 1024 _ _)
      (Rel.matmul plainK_512b plainR_v104 (Rel.truncf_left _ rRH) (castSelf w78 _) none none) (Rel.biasRow (castSelf w80 _) _ _))))))

theorem gFac_rel (A0 : FVec Ideal ⟨2, ![32768, 272]⟩ .f32) (A1 : FVec Ideal ⟨2, ![32768, 1104]⟩ .f32) (A2 : FVec Ideal ⟨2, ![32768, 64]⟩ .f32) (A3 : FVec Ideal ⟨2, ![1536, 80]⟩ .f32) (A4 : FVec Ideal ⟨1, ![1536]⟩ .f32) (A5 : FVec Ideal ⟨2, ![1536, 512]⟩ .f32) (A6 : FVec Ideal ⟨1, ![1536]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (A13 : FVec Ideal ⟨2, ![128, 512]⟩ .f32) (G : FVec Ideal ⟨2, ![512, 512]⟩ .f32) (v116 : FVec Ideal ⟨2, ![512, 128]⟩ .bf16)
    (rG : Rel ρ G (val_main_v115 (F := Ideal) A0 A1 A2 A3 A4 A5 A6 A7 A8 A9 A10 A11 A12)) (w116 : ∀ i, (v116 i : EReal) = (val_main_v121 (F := Ideal) A13) i) :
    Rel ρ (gFac G v116) (val_main_v122 (F := Ideal) A0 A1 A2 A3 A4 A5 A6 A7 A8 A9 A10 A11 A12 A13) := by
  unfold gFac val_main_v122
  exact Rel.matmul plainK_512c plainR_v122 (Rel.truncf_left _ rG) (castSelf w116 _) none none

/-- The whole stored block against the reference's result. -/
theorem out_rel (A0 : FVec Ideal ⟨2, ![32768, 272]⟩ .f32) (A1 : FVec Ideal ⟨2, ![32768, 1104]⟩ .f32) (A2 : FVec Ideal ⟨2, ![32768, 64]⟩ .f32) (A3 : FVec Ideal ⟨2, ![1536, 80]⟩ .f32) (A4 : FVec Ideal ⟨1, ![1536]⟩ .f32) (A5 : FVec Ideal ⟨2, ![1536, 512]⟩ .f32) (A6 : FVec Ideal ⟨1, ![1536]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (A13 : FVec Ideal ⟨2, ![128, 512]⟩ .f32) (v5 : FVec Ideal ⟨2, ![512, 512]⟩ .f32) (v53 : FVec Ideal ⟨2, ![512, 256]⟩ .f32) (v62 v66 : FVec Ideal ⟨2, ![512, 64]⟩ .f32) (v69 : FVec Ideal ⟨2, ![512, 80]⟩ .f32) (v71 : FVec Ideal ⟨2, ![80, 1536]⟩ .bf16) (v73 : FVec Ideal ⟨2, ![1, 1536]⟩ .f32) (v75 : FVec Ideal ⟨2, ![512, 1024]⟩ .bf16) (v77 : FVec Ideal ⟨2, ![1, 1024]⟩ .f32) (v78 : FVec Ideal ⟨2, ![512, 512]⟩ .bf16) (v80 : FVec Ideal ⟨2, ![1, 512]⟩ .f32) (v116 : FVec Ideal ⟨2, ![512, 128]⟩ .bf16)
    (r5 : Rel ρ v5 (val_main_v0 (F := Ideal) A1)) (r53 : Rel ρ v53 (val_main_v55 (F := Ideal) A0 A1 A7 A8 A9 A10)) (r62 : Rel ρ v62 (val_main_v61 (F := Ideal) A0 A1 A7 A8 A9 A10 A11 A12)) (r66 : Rel ρ v66 (val_main_v65 (F := Ideal) A0 A1 A7 A8 A9 A10 A11 A12))
    (r69 : Rel ρ v69 (val_main_v68 (F := Ideal) A0 A1 A2 A7 A8 A9 A10 A11 A12))
    (w71 : ∀ i, (v71 i : EReal) = (val_main_v69 (F := Ideal) A3) i) (w73 : ∀ i, (v73 i : EReal) = (val_main_v71 (F := Ideal) A4) i)
    (w75 : ∀ i, (v75 i : EReal) = (val_main_v81 (F := Ideal) A5) i) (w77 : ∀ i, (v77 i : EReal) = (val_main_v83 (F := Ideal) A6) i)
    (w78 : ∀ i, (v78 i : EReal) = (val_main_v103 (F := Ideal) A5) i) (w80 : ∀ i, (v80 i : EReal) = (val_main_v106 (F := Ideal) A6) i)
    (w116 : ∀ i, (v116 i : EReal) = (val_main_v121 (F := Ideal) A13) i) :
    Rel ρ (k0_pay1 v5 v53 v62 v66 v69 v71 v73 v75 v77 v78 v80 v116) (val_main_v123 (F := Ideal) A0 A1 A2 A3 A4 A5 A6 A7 A8 A9 A10 A11 A12 A13) := by
  have rX := gX_rel ρ A0 A1 A2 A3 A4 A7 A8 A9 A10 A11 A12 v69 v71 v73 r69 w71 w73
  have rH := gH_rel ρ A1 A5 A6 v5 v75 v77 r5 w75 w77
  have rZ := gZ_rel ρ A0 A1 A2 A3 A4 A5 A6 A7 A8 A9 A10 A11 A12 _ _ rX rH
  have rRH := gRH_rel ρ A0 A1 A2 A3 A4 A5 A6 A7 A8 A9 A10 A11 A12 _ _ v5 rX rH r5
  have rG := gNew_rel ρ A0 A1 A2 A3 A4 A5 A6 A7 A8 A9 A10 A11 A12 _ _ _ v5 v78 v80 rX rZ rRH r5 w78 w80
  have rF := gFac_rel ρ A0 A1 A2 A3 A4 A5 A6 A7 A8 A9 A10 A11 A12 A13 _ v116 rG w116
  rw [k0_pay1_eq]
  unfold val_main_v123
  exact Rel.concat6 rG r53 r62 r66 r69 rF _ _

end Cert.Bridge

end
-- ==== Proof.Payload.lean ====
/-
  What one grid point stores, against the reference.

  The block a grid point stores is the kernel body's value of the point's input blocks.  If the three row-blocked
  inputs are rows ρ p of the whole arrays, and every weight or bias window holds, entry by entry, what the reference
  computes from the same parameter (a transposed slice of a weight matrix, a bias row, the row-normalised readout
  matrix transposed), then row p of the stored block is row ρ p of the reference's result.
-/
import proofs.«131115_j6021544149148_2_alg».proof.Proof.Gen.KernelIdeal.Skeleton
import proofs.«131115_j6021544149148_2_alg».proof.Proof.Gen.ReferenceIdeal.Read
import proofs.«131115_j6021544149148_2_alg».proof.Proof.LibRowRel
import proofs.«131115_j6021544149148_2_alg».proof.Proof.LibRowDot
import proofs.«131115_j6021544149148_2_alg».proof.Proof.StageCon
import proofs.«131115_j6021544149148_2_alg».proof.Proof.StageGen

noncomputable section

namespace Cert.Bridge

open Idealize.ShloMosaic Idealize.ShloMosaic.ValueIdx Cert.LibRowRel
open Cert.KernelIdeal.Gen Cert.ReferenceIdeal.Read

/-- Row p of the block a point stores is row ρ p of the reference's result. -/
theorem payload_rel (ρ : Fin 512 → Fin 32768)
    (A0 : FVec Ideal ⟨2, ![32768, 272]⟩ .f32) (A1 : FVec Ideal ⟨2, ![32768, 1104]⟩ .f32) (A2 : FVec Ideal ⟨2, ![32768, 64]⟩ .f32) (A3 : FVec Ideal ⟨2, ![1536, 80]⟩ .f32) (A4 : FVec Ideal ⟨1, ![1536]⟩ .f32) (A5 : FVec Ideal ⟨2, ![1536, 512]⟩ .f32) (A6 : FVec Ideal ⟨1, ![1536]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (A13 : FVec Ideal ⟨2, ![128, 512]⟩ .f32)
    (x0 : FVec Ideal ⟨2, ![512, 272]⟩ .f32) (x1 : FVec Ideal ⟨2, ![512, 1104]⟩ .f32) (x2 : FVec Ideal ⟨2, ![512, 64]⟩ .f32) (x3 : FVec Ideal ⟨2, ![80, 1536]⟩ .bf16) (x4 : FVec Ideal ⟨2, ![1, 1536]⟩ .f32) (x5 : FVec Ideal ⟨2, ![512, 1024]⟩ .bf16) (x6 : FVec Ideal ⟨2, ![1, 1024]⟩ .f32) (x7 : FVec Ideal ⟨2, ![512, 512]⟩ .bf16) (x8 : FVec Ideal ⟨2, ![1, 512]⟩ .f32) (x9 : FVec Ideal ⟨2, ![384, 768]⟩ .bf16) (x10 : FVec Ideal ⟨2, ![1, 768]⟩ .f32) (x11 : FVec Ideal ⟨2, ![256, 512]⟩ .bf16) (x12 : FVec Ideal ⟨2, ![1, 512]⟩ .f32) (x13 : FVec Ideal ⟨2, ![256, 256]⟩ .bf16) (x14 : FVec Ideal ⟨2, ![1, 256]⟩ .f32) (x15 : FVec Ideal ⟨2, ![256, 128]⟩ .bf16) (x16 : FVec Ideal ⟨2, ![1, 128]⟩ .f32) (x17 : FVec Ideal ⟨2, ![512, 128]⟩ .bf16)
    (h0 : Rel ρ x0 A0) (h1 : Rel ρ x1 A1) (h2 : Rel ρ x2 A2)
    (h3 : ∀ i, (x3 i : EReal) = (val_main_v69 (F := Ideal) A3) i) (h4 : ∀ i, (x4 i : EReal) = (val_main_v71 (F := Ideal) A4) i) (h5 : ∀ i, (x5 i : EReal) = (val_main_v81 (F := Ideal) A5) i) (h6 : ∀ i, (x6 i : EReal) = (val_main_v83 (F := Ideal) A6) i) (h7 : ∀ i, (x7 i : EReal) = (val_main_v103 (F := Ideal) A5) i) (h8 : ∀ i, (x8 i : EReal) = (val_main_v106 (F := Ideal) A6) i) (h9 : ∀ i, (x9 i : EReal) = (val_main_v9 (F := Ideal) A7) i) (h10 : ∀ i, (x10 i : EReal) = (val_main_v11 (F := Ideal) A8) i) (h11 : ∀ i, (x11 i : EReal) = (val_main_v21 (F := Ideal) A9) i) (h12 : ∀ i, (x12 i : EReal) = (val_main_v23 (F := Ideal) A10) i) (h13 : ∀ i, (x13 i : EReal) = (val_main_v43 (F := Ideal) A9) i) (h14 : ∀ i, (x14 i : EReal) = (val_main_v46 (F := Ideal) A10) i) (h15 : ∀ i, (x15 i : EReal) = (val_main_v56 (F := Ideal) A11) i) (h16 : ∀ i, (x16 i : EReal) = (val_main_v58 (F := Ideal) A12) i) (h17 : ∀ i, (x17 i : EReal) = (val_main_v121 (F := Ideal) A13) i) :
    Rel ρ (k0_pay1 (k0_pay3 x1) (k0_pay12 (k0_pay4 x1) (k0_pay5 x13) (k0_pay6 x14) (k0_pay8 x0 x1 x9 x10) (k0_pay10 x0 x1 x9 x10 x11 x12) (k0_pay11 x0 x1 x9 x10 x11 x12)) (k0_pay14 (k0_pay4 x1) (k0_pay5 x13) (k0_pay6 x14) (k0_pay8 x0 x1 x9 x10) (k0_pay10 x0 x1 x9 x10 x11 x12) (k0_pay11 x0 x1 x9 x10 x11 x12) x15 x16) (k0_pay15 (k0_pay4 x1) (k0_pay5 x13) (k0_pay6 x14) (k0_pay8 x0 x1 x9 x10) (k0_pay10 x0 x1 x9 x10 x11 x12) (k0_pay11 x0 x1 x9 x10 x11 x12) x15 x16) (k0_pay16 x2 (k0_pay2 x0) (k0_pay4 x1) (k0_pay5 x13) (k0_pay6 x14) (k0_pay8 x0 x1 x9 x10) (k0_pay10 x0 x1 x9 x10 x11 x12) (k0_pay11 x0 x1 x9 x10 x11 x12) x15 x16) (k0_pay17 x3) (k0_pay18 x4) (k0_pay19 x5) (k0_pay20 x6) x7 x8 x17)
      (val_main_v123 (F := Ideal) A0 A1 A2 A3 A4 A5 A6 A7 A8 A9 A10 A11 A12 A13) := by
  -- the slices of the two row-blocked inputs
  have e2 := ext_rel ρ A0 x0 h0
  have e3 := genState_rel ρ A1 x1 h1
  have e4 := conState_rel ρ A1 x1 h1
  -- the controller cell
  have e8 := conXn_rel ρ A0 A1 A7 A8 x0 x1 x9 x10 h0 h1 h9 h10
  have e10 := conZ_rel ρ A0 A1 A7 A8 A9 A10 x0 x1 x9 x10 x11 x12 h0 h1 h9 h10 h11 h12
  have e11 := conRH_rel ρ A0 A1 A7 A8 A9 A10 x0 x1 x9 x10 x11 x12 h0 h1 h9 h10 h11 h12
  have w5 : ∀ i, (k0_pay5 (F := Ideal) x13 i : EReal) = (val_main_v43 (F := Ideal) A9) i := by unfold k0_pay5; exact castSelf h13 _
  have w6 : ∀ i, (k0_pay6 (F := Ideal) x14 i : EReal) = (val_main_v46 (F := Ideal) A10) i := by unfold k0_pay6; exact castSelf h14 _
  have e12 := conNew_rel ρ A0 A1 A7 A8 A9 A10 (k0_pay4 x1) (k0_pay5 x13) (k0_pay6 x14) (k0_pay8 x0 x1 x9 x10) (k0_pay10 x0 x1 x9 x10 x11 x12) (k0_pay11 x0 x1 x9 x10 x11 x12) e4 w5 w6 e8 e10 e11
  -- the posterior head and the generator's input
  have e13 := coParams_rel ρ A0 A1 A7 A8 A9 A10 A11 A12 (k0_pay4 x1) (k0_pay5 x13) (k0_pay6 x14) (k0_pay8 x0 x1 x9 x10) (k0_pay10 x0 x1 x9 x10 x11 x12) (k0_pay11 x0 x1 x9 x10 x11 x12) x15 x16 h15 h16 e12
  have e14 := coMean_rel ρ A0 A1 A7 A8 A9 A10 A11 A12 (k0_pay4 x1) (k0_pay5 x13) (k0_pay6 x14) (k0_pay8 x0 x1 x9 x10) (k0_pay10 x0 x1 x9 x10 x11 x12) (k0_pay11 x0 x1 x9 x10 x11 x12) x15 x16 e13
  have e15 := coStd_rel ρ A0 A1 A7 A8 A9 A10 A11 A12 (k0_pay4 x1) (k0_pay5 x13) (k0_pay6 x14) (k0_pay8 x0 x1 x9 x10) (k0_pay10 x0 x1 x9 x10 x11 x12) (k0_pay11 x0 x1 x9 x10 x11 x12) x15 x16 e13
  have e16 := genIn_rel ρ A0 A1 A2 A7 A8 A9 A10 A11 A12 x2 (k0_pay2 x0) (k0_pay4 x1) (k0_pay5 x13) (k0_pay6 x14) (k0_pay8 x0 x1 x9 x10) (k0_pay10 x0 x1 x9 x10 x11 x12) (k0_pay11 x0 x1 x9 x10 x11 x12) x15 x16 h2 e2 e14 e15
  -- the generator's weight and bias windows pass through a cast to their own shape
  have w17 : ∀ i, (k0_pay17 (F := Ideal) x3 i : EReal) = (val_main_v69 (F := Ideal) A3) i := by unfold k0_pay17; exact castSelf h3 _
  have w18 : ∀ i, (k0_pay18 (F := Ideal) x4 i : EReal) = (val_main_v71 (F := Ideal) A4) i := by unfold k0_pay18; exact castSelf h4 _
  have w19 : ∀ i, (k0_pay19 (F := Ideal) x5 i : EReal) = (val_main_v81 (F := Ideal) A5) i := by unfold k0_pay19; exact castSelf h5 _
  have w20 : ∀ i, (k0_pay20 (F := Ideal) x6 i : EReal) = (val_main_v83 (F := Ideal) A6) i := by unfold k0_pay20; exact castSelf h6 _
  -- the generator cell, the readout and the six pieces
  exact out_rel ρ A0 A1 A2 A3 A4 A5 A6 A7 A8 A9 A10 A11 A12 A13 (k0_pay3 x1) (k0_pay12 (k0_pay4 x1) (k0_pay5 x13) (k0_pay6 x14) (k0_pay8 x0 x1 x9 x10) (k0_pay10 x0 x1 x9 x10 x11 x12) (k0_pay11 x0 x1 x9 x10 x11 x12)) (k0_pay14 (k0_pay4 x1) (k0_pay5 x13) (k0_pay6 x14) (k0_pay8 x0 x1 x9 x10) (k0_pay10 x0 x1 x9 x10 x11 x12) (k0_pay11 x0 x1 x9 x10 x11 x12) x15 x16)
    (k0_pay15 (k0_pay4 x1) (k0_pay5 x13) (k0_pay6 x14) (k0_pay8 x0 x1 x9 x10) (k0_pay10 x0 x1 x9 x10 x11 x12) (k0_pay11 x0 x1 x9 x10 x11 x12) x15 x16) (k0_pay16 x2 (k0_pay2 x0) (k0_pay4 x1) (k0_pay5 x13) (k0_pay6 x14) (k0_pay8 x0 x1 x9 x10) (k0_pay10 x0 x1 x9 x10 x11 x12) (k0_pay11 x0 x1 x9 x10 x11 x12) x15 x16) (k0_pay17 x3) (k0_pay18 x4) (k0_pay19 x5) (k0_pay20 x6) x7 x8 x17
    e3 e12 e14 e15 e16 w17 w18 w19 w20 h7 h8 h17

end Cert.Bridge

end
-- ==== Proof.HostHeld.lean ====
/-
  What the host operations leave in the buffers the kernel's weight and bias windows stage.

  Before the grid runs, the host computes each of these buffers from one parameter array: a weight matrix (or a block
  of its rows) transposed and narrowed to bf16; a bias vector (or a stretch of it) laid out as one row; and the
  readout matrix with each row divided by the larger of its Euclidean norm and a small constant, transposed and
  narrowed.  Each lemma reads one buffer off the list of host operations as that term of the argument as launched.
-/
import proofs.«131115_j6021544149148_2_alg».proof.Proof.Gen.KernelIdeal.Frame

noncomputable section

namespace Cert.KernelIdeal.Whole

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The buffer holds argument 3 transposed. -/
theorem held_v1 (c : Dev nD) :
    (V m c main_v1 : Vec F S80x1536 .bf16)
      = truncf .bf16 (transpose S80x1536 [1, 0] (m ((c : Thread nD τ).loc main_arg3) : Vec F S1536x80 .f32) transposes_S1536x80_S80x1536_1_0) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The buffer holds rows 0 … 1023 of argument 5, transposed. -/
theorem held_v4 (c : Dev nD) :
    (V m c main_v4 : Vec F S512x1024 .bf16)
      = truncf .bf16 (transpose S512x1024 [1, 0] (extractStridedSlice S1024x512 ![0, 0] (m ((c : Thread nD τ).loc main_arg5) : Vec F S1536x512 .f32) slices_S1536x512_S1024x512_0_0) transposes_S1024x512_S512x1024_1_0) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The buffer holds rows 1024 … 1535 of argument 5, transposed. -/
theorem held_v7 (c : Dev nD) :
    (V m c main_v7 : Vec F S512x512 .bf16)
      = truncf .bf16 (transpose S512x512 [1, 0] (extractStridedSlice S512x512 ![1024, 0] (m ((c : Thread nD τ).loc main_arg5) : Vec F S1536x512 .f32) slices_S1536x512_S512x512_1024_0) transposes_S512x512_S512x512_1_0) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The buffer holds argument 4 as one row. -/
theorem held_v8 (c : Dev nD) :
    (V m c main_v8 : Vec F S1x1536 .f32)
      = shapeCast S1x1536 (m ((c : Thread nD τ).loc main_arg4) : Vec F S1536 .f32) shapeCasts_S1536_S1x1536 := by
  dsimp only [Gen.V]
  simp only [Gen.hostOps0, Gen.hostOps0_1, Gen.hostOps0_2, List.flatten_cons, List.flatten_nil, List.append_nil, List.cons_append, List.nil_append]
  after_results_simp <;> rfl

/-- The buffer holds entries 0 … 1023 of argument 6 as one row. -/
theorem held_v10 (c : Dev nD) :
    (V m c main_v10 : Vec F S1x1024 .f32)
      = shapeCast S1x1024 (extractStridedSlice S1024 ![0] (m ((c : Thread nD τ).loc main_arg6) : Vec F S1536 .f32) slices_S1536_S1024_0) shapeCasts_S1024_S1x1024 := by
  dsimp only [Gen.V]
  simp only [Gen.hostOps0, Gen.hostOps0_1, Gen.hostOps0_2, List.flatten_cons, List.flatten_nil, List.append_nil, List.cons_append, List.nil_append]
  after_results_simp <;> rfl

/-- The buffer holds entries 1024 … 1535 of argument 6 as one row. -/
theorem held_v12 (c : Dev nD) :
    (V m c main_v12 : Vec F S1x512 .f32)
      = shapeCast S1x512 (extractStridedSlice S512 ![1024] (m ((c : Thread nD τ).loc main_arg6) : Vec F S1536 .f32) slices_S1536_S512_1024) shapeCasts_S512_S1x512 := by
  dsimp only [Gen.V]
  simp only [Gen.hostOps0, Gen.hostOps0_1, Gen.hostOps0_2, List.flatten_cons, List.flatten_nil, List.append_nil, List.cons_append, List.nil_append]
  after_results_simp <;> rfl

/-- The buffer holds argument 7 transposed. -/
theorem held_v14 (c : Dev nD) :
    (V m c main_v14 : Vec F S384x768 .bf16)
      = truncf .bf16 (transpose S384x768 [1, 0] (m ((c : Thread nD τ).loc main_arg7) : Vec F S768x384 .f32) transposes_S768x384_S384x768_1_0) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The buffer holds rows 0 … 511 of argument 9, transposed. -/
theorem held_v17 (c : Dev nD) :
    (V m c main_v17 : Vec F S256x512 .bf16)
      = truncf .bf16 (transpose S256x512 [1, 0] (extractStridedSlice S512x256 ![0, 0] (m ((c : Thread nD τ).loc main_arg9) : Vec F S768x256 .f32) slices_S768x256_S512x256_0_0) transposes_S512x256_S256x512_1_0) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The buffer holds rows 512 … 767 of argument 9, transposed. -/
theorem held_v20 (c : Dev nD) :
    (V m c main_v20 : Vec F S256x256 .bf16)
      = truncf .bf16 (transpose S256x256 [1, 0] (extractStridedSlice S256x256 ![512, 0] (m ((c : Thread nD τ).loc main_arg9) : Vec F S768x256 .f32) slices_S768x256_S256x256_512_0) transposes_S256x256_S256x256_1_0) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The buffer holds argument 8 as one row. -/
theorem held_v21 (c : Dev nD) :
    (V m c main_v21 : Vec F S1x768 .f32)
      = shapeCast S1x768 (m ((c : Thread nD τ).loc main_arg8) : Vec F S768 .f32) shapeCasts_S768_S1x768 := by
  dsimp only [Gen.V]
  simp only [Gen.hostOps0, Gen.hostOps0_1, Gen.hostOps0_2, List.flatten_cons, List.flatten_nil, List.append_nil, List.cons_append, List.nil_append]
  after_results_simp <;> rfl

/-- The buffer holds entries 0 … 511 of argument 10 as one row. -/
theorem held_v23 (c : Dev nD) :
    (V m c main_v23 : Vec F S1x512 .f32)
      = shapeCast S1x512 (extractStridedSlice S512 ![0] (m ((c : Thread nD τ).loc main_arg10) : Vec F S768 .f32) slices_S768_S512_0) shapeCasts_S512_S1x512 := by
  dsimp only [Gen.V]
  simp only [Gen.hostOps0, Gen.hostOps0_1, Gen.hostOps0_2, List.flatten_cons, List.flatten_nil, List.append_nil, List.cons_append, List.nil_append]
  after_results_simp <;> rfl

/-- The buffer holds entries 512 … 767 of argument 10 as one row. -/
theorem held_v25 (c : Dev nD) :
    (V m c main_v25 : Vec F S1x256 .f32)
      = shapeCast S1x256 (extractStridedSlice S256 ![512] (m ((c : Thread nD τ).loc main_arg10) : Vec F S768 .f32) slices_S768_S256_512) shapeCasts_S256_S1x256 := by
  dsimp only [Gen.V]
  simp only [Gen.hostOps0, Gen.hostOps0_1, Gen.hostOps0_2, List.flatten_cons, List.flatten_nil, List.append_nil, List.cons_append, List.nil_append]
  after_results_simp <;> rfl

/-- The buffer holds argument 11 transposed. -/
theorem held_v27 (c : Dev nD) :
    (V m c main_v27 : Vec F S256x128 .bf16)
      = truncf .bf16 (transpose S256x128 [1, 0] (m ((c : Thread nD τ).loc main_arg11) : Vec F S128x256 .f32) transposes_S128x256_S256x128_1_0) bitsLt_bf16_f32 := by
  dsimp only [Gen.V]
  simp only [Gen.hostOps0, Gen.hostOps0_1, Gen.hostOps0_2, List.flatten_cons, List.flatten_nil, List.append_nil, List.cons_append, List.nil_append]
  after_results_simp <;> rfl

/-- The buffer holds argument 12 as one row. -/
theorem held_v28 (c : Dev nD) :
    (V m c main_v28 : Vec F S1x128 .f32)
      = shapeCast S1x128 (m ((c : Thread nD τ).loc main_arg12) : Vec F S128 .f32) shapeCasts_S128_S1x128 := by
  dsimp only [Gen.V]
  simp only [Gen.hostOps0, Gen.hostOps0_1, Gen.hostOps0_2, List.flatten_cons, List.flatten_nil, List.append_nil, List.cons_append, List.nil_append]
  after_results_simp <;> rfl

/-- The buffer holds the readout matrix, each row divided by the larger of its norm and the constant, transposed. -/
theorem held_v35 (c : Dev nD) :
    (V m c main_v35 : Vec F S512x128 .bf16)
      = truncf .bf16 (transpose S512x128 [1, 0]
          (Host.divf (m ((c : Thread nD τ).loc main_arg13) : Vec F S128x512 .f32)
            (broadcastInDim S128x512 ![0, 1] bcast_S128x1_S128x512_0_1
              (maximumf
                (Host.sqrt (broadcastInDim S128x1 ![0] bcast_S128_S128x1_0
                  (Host.reduceAdd (mulf (m ((c : Thread nD τ).loc main_arg13) : Vec F S128x512 .f32) (m ((c : Thread nD τ).loc main_arg13) : Vec F S128x512 .f32))
                    (constant S_ .f32 0x00000000#32) reducesTo_S128x512_S128_d1 h_S_)))
                (broadcastInDim S128x1 ![] bcast_S_S128x1 (constant S_ .f32 0x2B8CBCCC#32)))))
          transposes_S128x512_S512x128_1_0) bitsLt_bf16_f32 := by
  dsimp only [Gen.V]
  simp only [Gen.hostOps0, Gen.hostOps0_1, Gen.hostOps0_2, List.flatten_cons, List.flatten_nil, List.append_nil, List.cons_append, List.nil_append]
  after_results_simp <;> rfl

end Cert.KernelIdeal.Whole

end
-- ==== Proof.HostSide.lean ====
/-
  The weight and bias windows hold what the reference computes from the same parameters.

  The kernel's program and the reference apply the same host operations to a weight matrix — a block of rows, a
  transposition — and differ only in a final narrowing to bf16, which is the identity on extended reals; likewise for
  the row-normalised readout matrix.  A bias vector reaches the kernel reshaped from [n] to [1, n] and the reference
  broadcast from [n] into [1, n] along the second axis: both arrays hold entry j of the vector at (0, j).
-/
import proofs.«131115_j6021544149148_2_alg».proof.Proof.HostHeld
import proofs.«131115_j6021544149148_2_alg».proof.Proof.Gen.ReferenceIdeal.Read
import Idealize.ShloMosaic.Lib.ValueIdx
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx
open Cert.ReferenceIdeal.Read

/-- A vector reshaped to one row and the same vector broadcast into one row along the second axis are the same row. -/
theorem row_reshape_eq_bcast {n : ℕ} (hn : n ≠ 1) {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1])
    (i : (⟨2, ![1, n]⟩ : Shape).Idx) :
    shapeCast ⟨2, ![1, n]⟩ x hc i = broadcastInDim ⟨2, ![1, n]⟩ ![1] hb x i := by
  obtain ⟨u, j, rfl⟩ : ∃ (u : Fin 1) (j : Fin n), i = ix2 u j := ⟨i 0, i 1, eq_ix2 i⟩
  rw [shapeCast_a_1a_apply x hc u j, broadcastInDim_apply ![1] hb x (ix2 u j) (ix1 j) (fun a => by
    match a with
    | ⟨0, _⟩ => show j.val = if n = 1 then 0 else j.val; rw [if_neg hn])]

variable (m : (ℓ : Loc nD τ sig) → Buf (Elt Ideal) ℓ)

/-- Window 3's array is, entry by entry, the reference's matrix of stage 69. -/
theorem held_w3 (c : Dev nD) (i : S80x1536.Idx) :
    ((V m c main_v1 : Vec Ideal S80x1536 .bf16) i : EReal) = val_main_v69 (F := Ideal) (m ((c : Thread nD τ).loc main_arg3)) i := by
  rw [held_v1 m c]; rfl

/-- Window 4's array is, entry by entry, the reference's bias row of stage 71. -/
theorem held_w4 (c : Dev nD) (i : S1x1536.Idx) :
    ((V m c main_v8 : Vec Ideal S1x1536 .f32) i : EReal) = val_main_v71 (F := Ideal) (m ((c : Thread nD τ).loc main_arg4)) i := by
  rw [held_v8 m c]; exact row_reshape_eq_bcast (n := 1536) (by decide) _ _ _ i

/-- Window 5's array is, entry by entry, the reference's matrix of stage 81. -/
theorem held_w5 (c : Dev nD) (i : S512x1024.Idx) :
    ((V m c main_v4 : Vec Ideal S512x1024 .bf16) i : EReal) = val_main_v81 (F := Ideal) (m ((c : Thread nD τ).loc main_arg5)) i := by
  rw [held_v4 m c]; rfl

/-- Window 6's array is, entry by entry, the reference's bias row of stage 83. -/
theorem held_w6 (c : Dev nD) (i : S1x1024.Idx) :
    ((V m c main_v10 : Vec Ideal S1x1024 .f32) i : EReal) = val_main_v83 (F := Ideal) (m ((c : Thread nD τ).loc main_arg6)) i := by
  rw [held_v10 m c]; exact row_reshape_eq_bcast (n := 1024) (by decide) _ _ _ i

/-- Window 7's array is, entry by entry, the reference's matrix of stage 103. -/
theorem held_w7 (c : Dev nD) (i : S512x512.Idx) :
    ((V m c main_v7 : Vec Ideal S512x512 .bf16) i : EReal) = val_main_v103 (F := Ideal) (m ((c : Thread nD τ).loc main_arg5)) i := by
  rw [held_v7 m c]; rfl

/-- Window 8's array is, entry by entry, the reference's bias row of stage 106. -/
theorem held_w8 (c : Dev nD) (i : S1x512.Idx) :
    ((V m c main_v12 : Vec Ideal S1x512 .f32) i : EReal) = val_main_v106 (F := Ideal) (m ((c : Thread nD τ).loc main_arg6)) i := by
  rw [held_v12 m c]; exact row_reshape_eq_bcast (n := 512) (by decide) _ _ _ i

/-- Window 9's array is, entry by entry, the reference's matrix of stage 9. -/
theorem held_w9 (c : Dev nD) (i : S384x768.Idx) :
    ((V m c main_v14 : Vec Ideal S384x768 .bf16) i : EReal) = val_main_v9 (F := Ideal) (m ((c : Thread nD τ).loc main_arg7)) i := by
  rw [held_v14 m c]; rfl

/-- Window 10's array is, entry by entry, the reference's bias row of stage 11. -/
theorem held_w10 (c : Dev nD) (i : S1x768.Idx) :
    ((V m c main_v21 : Vec Ideal S1x768 .f32) i : EReal) = val_main_v11 (F := Ideal) (m ((c : Thread nD τ).loc main_arg8)) i := by
  rw [held_v21 m c]; exact row_reshape_eq_bcast (n := 768) (by decide) _ _ _ i

/-- Window 11's array is, entry by entry, the reference's matrix of stage 21. -/
theorem held_w11 (c : Dev nD) (i : S256x512.Idx) :
    ((V m c main_v17 : Vec Ideal S256x512 .bf16) i : EReal) = val_main_v21 (F := Ideal) (m ((c : Thread nD τ).loc main_arg9)) i := by
  rw [held_v17 m c]; rfl

/-- Window 12's array is, entry by entry, the reference's bias row of stage 23. -/
theorem held_w12 (c : Dev nD) (i : S1x512.Idx) :
    ((V m c main_v23 : Vec Ideal S1x512 .f32) i : EReal) = val_main_v23 (F := Ideal) (m ((c : Thread nD τ).loc main_arg10)) i := by
  rw [held_v23 m c]; exact row_reshape_eq_bcast (n := 512) (by decide) _ _ _ i

/-- Window 13's array is, entry by entry, the reference's matrix of stage 43. -/
theorem held_w13 (c : Dev nD) (i : S256x256.Idx) :
    ((V m c main_v20 : Vec Ideal S256x256 .bf16) i : EReal) = val_main_v43 (F := Ideal) (m ((c : Thread nD τ).loc main_arg9)) i := by
  rw [held_v20 m c]; rfl

/-- Window 14's array is, entry by entry, the reference's bias row of stage 46. -/
theorem held_w14 (c : Dev nD) (i : S1x256.Idx) :
    ((V m c main_v25 : Vec Ideal S1x256 .f32) i : EReal) = val_main_v46 (F := Ideal) (m ((c : Thread nD τ).loc main_arg10)) i := by
  rw [held_v25 m c]; exact row_reshape_eq_bcast (n := 256) (by decide) _ _ _ i

/-- Window 15's array is, entry by entry, the reference's matrix of stage 56. -/
theorem held_w15 (c : Dev nD) (i : S256x128.Idx) :
    ((V m c main_v27 : Vec Ideal S256x128 .bf16) i : EReal) = val_main_v56 (F := Ideal) (m ((c : Thread nD τ).loc main_arg11)) i := by
  rw [held_v27 m c]; rfl

/-- Window 16's array is, entry by entry, the reference's bias row of stage 58. -/
theorem held_w16 (c : Dev nD) (i : S1x128.Idx) :
    ((V m c main_v28 : Vec Ideal S1x128 .f32) i : EReal) = val_main_v58 (F := Ideal) (m ((c : Thread nD τ).loc main_arg12)) i := by
  rw [held_v28 m c]; exact row_reshape_eq_bcast (n := 128) (by decide) _ _ _ i

/-- Window 17's array is, entry by entry, the reference's matrix of stage 121. -/
theorem held_w17 (c : Dev nD) (i : S512x128.Idx) :
    ((V m c main_v35 : Vec Ideal S512x128 .bf16) i : EReal) = val_main_v121 (F := Ideal) (m ((c : Thread nD τ).loc main_arg13)) i := by
  rw [held_v35 m c]; rfl

end Cert.KernelIdeal.Whole

end
-- ==== Proof.BlockReads.lean ====
/-
  The blocks a grid point reads.

  The grid has 64 points.  Point t reads rows 512·t … 512·t + 511 of each of the three row-blocked arguments, all
  columns, and every other input window hands it one whole array, the same at every point: the block index of such
  a window is (0, 0) and its block has the array's own extents.
-/
import proofs.«131115_j6021544149148_2_alg».proof.Proof.Gen.KernelIdeal.Value
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The row of the whole array that row p of point t's block is. -/
def rowOf (t : Fin cfg0.N) (p : Fin 512) : Fin 32768 :=
  ⟨512 * t.val + p.val, by have h := t.isLt; have hN : cfg0.N = 64 := N_0; have hp := p.isLt; omega⟩

theorem rowOf_val (t : Fin cfg0.N) (p : Fin 512) : (rowOf t p).val = 512 * t.val + p.val := rfl

/-- The row-blocked windows (the three inputs and the output) sit at block (t, 0) at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_18.index t (0 : Fin 2) = t.val ∧ win0_18.index t (1 : Fin 2) = 0 :=
  (by decide +kernel : ∀ t : Fin grid0.N, _)

/-- Every other window sits at block (0, 0) at every point. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0
    ∧ win0_17.index t (0 : Fin 2) = 0 ∧ win0_17.index t (1 : Fin 2) = 0 :=
  (by decide +kernel : ∀ t : Fin grid0.N, _)

/-- Row p of point t's block of argument 0 is row 512·t + p of the argument. -/
theorem rows_w0 (c : Dev nD) (t : Fin cfg0.N) (p : Fin 512) (q : Fin 272) :
    (iblk m c 0 t : Vec F S512x272 .f32) (ix2 p q) = (m ((c : Thread nD τ).loc main_arg0) : Vec F S32768x272 .f32) (ix2 (rowOf t p) q) := by
  obtain ⟨e0, e1, e2, e3, e4, e5, e6, e7⟩ := idx_rows t
  unfold iblk
  rw [View.read_apply]
  show V m c main_arg0 (((cfg0.win 0).blk t).view.emb (ix2 p q)) = _
  rw [V_main_arg0]
  refine congrArg (m ((c : Thread nD τ).loc main_arg0) : Vec F S32768x272 .f32) ?_
  funext a; apply Fin.ext
  match a with
  | ⟨0, _⟩ => show win0_0.index t (0 : Fin 2) * 512 + 1 * p.val = 512 * t.val + p.val; omega
  | ⟨1, _⟩ => show win0_0.index t (1 : Fin 2) * 272 + 1 * q.val = q.val; omega

/-- Row p of point t's block of argument 1 is row 512·t + p of the argument. -/
theorem rows_w1 (c : Dev nD) (t : Fin cfg0.N) (p : Fin 512) (q : Fin 1104) :
    (iblk m c 1 t : Vec F S512x1104 .f32) (ix2 p q) = (m ((c : Thread nD τ).loc main_arg1) : Vec F S32768x1104 .f32) (ix2 (rowOf t p) q) := by
  obtain ⟨e0, e1, e2, e3, e4, e5, e6, e7⟩ := idx_rows t
  unfold iblk
  rw [View.read_apply]
  show V m c main_arg1 (((cfg0.win 1).blk t).view.emb (ix2 p q)) = _
  rw [V_main_arg1]
  refine congrArg (m ((c : Thread nD τ).loc main_arg1) : Vec F S32768x1104 .f32) ?_
  funext a; apply Fin.ext
  match a with
  | ⟨0, _⟩ => show win0_1.index t (0 : Fin 2) * 512 + 1 * p.val = 512 * t.val + p.val; omega
  | ⟨1, _⟩ => show win0_1.index t (1 : Fin 2) * 1104 + 1 * q.val = q.val; omega

/-- Row p of point t's block of argument 2 is row 512·t + p of the argument. -/
theorem rows_w2 (c : Dev nD) (t : Fin cfg0.N) (p : Fin 512) (q : Fin 64) :
    (iblk m c 2 t : Vec F S512x64 .f32) (ix2 p q) = (m ((c : Thread nD τ).loc main_arg2) : Vec F S32768x64 .f32) (ix2 (rowOf t p) q) := by
  obtain ⟨e0, e1, e2, e3, e4, e5, e6, e7⟩ := idx_rows t
  unfold iblk
  rw [View.read_apply]
  show V m c main_arg2 (((cfg0.win 2).blk t).view.emb (ix2 p q)) = _
  rw [V_main_arg2]
  refine congrArg (m ((c : Thread nD τ).loc main_arg2) : Vec F S32768x64 .f32) ?_
  funext a; apply Fin.ext
  match a with
  | ⟨0, _⟩ => show win0_2.index t (0 : Fin 2) * 512 + 1 * p.val = 512 * t.val + p.val; omega
  | ⟨1, _⟩ => show win0_2.index t (1 : Fin 2) * 64 + 1 * q.val = q.val; omega

/-- Window 3's block at every point is the whole staged array. -/
theorem whole_w3 (c : Dev nD) (t : Fin cfg0.N) : (iblk m c 3 t : Vec F S80x1536 .bf16) = (V m c main_v1 : Vec F S80x1536 .bf16) := by
  have h := idx_whole t
  funext y
  unfold iblk
  rw [View.read_apply]
  show V m c main_v1 (((cfg0.win 3).blk t).view.emb y) = V m c main_v1 y
  refine congrArg (V m c main_v1 : Vec F S80x1536 .bf16) ?_
  funext a; apply Fin.ext
  match a with
  | ⟨0, _⟩ => show win0_3.index t (0 : Fin 2) * 80 + 1 * (y 0).val = (y 0).val; omega
  | ⟨1, _⟩ => show win0_3.index t (1 : Fin 2) * 1536 + 1 * (y 1).val = (y 1).val; omega

/-- Window 4's block at every point is the whole staged array. -/
theorem whole_w4 (c : Dev nD) (t : Fin cfg0.N) : (iblk m c 4 t : Vec F S1x1536 .f32) = (V m c main_v8 : Vec F S1x1536 .f32) := by
  have h := idx_whole t
  funext y
  unfold iblk
  rw [View.read_apply]
  show V m c main_v8 (((cfg0.win 4).blk t).view.emb y) = V m c main_v8 y
  refine congrArg (V m c main_v8 : Vec F S1x1536 .f32) ?_
  funext a; apply Fin.ext
  match a with
  | ⟨0, _⟩ => show win0_4.index t (0 : Fin 2) * 1 + 1 * (y 0).val = (y 0).val; omega
  | ⟨1, _⟩ => show win0_4.index t (1 : Fin 2) * 1536 + 1 * (y 1).val = (y 1).val; omega

/-- Window 5's block at every point is the whole staged array. -/
theorem whole_w5 (c : Dev nD) (t : Fin cfg0.N) : (iblk m c 5 t : Vec F S512x1024 .bf16) = (V m c main_v4 : Vec F S512x1024 .bf16) := by
  have h := idx_whole t
  funext y
  unfold iblk
  rw [View.read_apply]
  show V m c main_v4 (((cfg0.win 5).blk t).view.emb y) = V m c main_v4 y
  refine congrArg (V m c main_v4 : Vec F S512x1024 .bf16) ?_
  funext a; apply Fin.ext
  match a with
  | ⟨0, _⟩ => show win0_5.index t (0 : Fin 2) * 512 + 1 * (y 0).val = (y 0).val; omega
  | ⟨1, _⟩ => show win0_5.index t (1 : Fin 2) * 1024 + 1 * (y 1).val = (y 1).val; omega

/-- Window 6's block at every point is the whole staged array. -/
theorem whole_w6 (c : Dev nD) (t : Fin cfg0.N) : (iblk m c 6 t : Vec F S1x1024 .f32) = (V m c main_v10 : Vec F S1x1024 .f32) := by
  have h := idx_whole t
  funext y
  unfold iblk
  rw [View.read_apply]
  show V m c main_v10 (((cfg0.win 6).blk t).view.emb y) = V m c main_v10 y
  refine congrArg (V m c main_v10 : Vec F S1x1024 .f32) ?_
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-- Window 7's block at every point is the whole staged array. -/
theorem whole_w7 (c : Dev nD) (t : Fin cfg0.N) : (iblk m c 7 t : Vec F S512x512 .bf16) = (V m c main_v7 : Vec F S512x512 .bf16) := by
  have h := idx_whole t
  funext y
  unfold iblk
  rw [View.read_apply]
  show V m c main_v7 (((cfg0.win 7).blk t).view.emb y) = V m c main_v7 y
  refine congrArg (V m c main_v7 : Vec F S512x512 .bf16) ?_
  funext a; apply Fin.ext
  match a with
  | ⟨0, _⟩ => show win0_7.index t (0 : Fin 2) * 512 + 1 * (y 0).val = (y 0).val; omega
  | ⟨1, _⟩ => show win0_7.index t (1 : Fin 2) * 512 + 1 * (y 1).val = (y 1).val; omega

/-- Window 8's block at every point is the whole staged array. -/
theorem whole_w8 (c : Dev nD) (t : Fin cfg0.N) : (iblk m c 8 t : Vec F S1x512 .f32) = (V m c main_v12 : Vec F S1x512 .f32) := by
  have h := idx_whole t
  funext y
  unfold iblk
  rw [View.read_apply]
  show V m c main_v12 (((cfg0.win 8).blk t).view.emb y) = V m c main_v12 y
  refine congrArg (V m c main_v12 : Vec F S1x512 .f32) ?_
  funext a; apply Fin.ext
  match a with
  | ⟨0, _⟩ => show win0_8.index t (0 : Fin 2) * 1 + 1 * (y 0).val = (y 0).val; omega
  | ⟨1, _⟩ => show win0_8.index t (1 : Fin 2) * 512 + 1 * (y 1).val = (y 1).val; omega

/-- Window 9's block at every point is the whole staged array. -/
theorem whole_w9 (c : Dev nD) (t : Fin cfg0.N) : (iblk m c 9 t : Vec F S384x768 .bf16) = (V m c main_v14 : Vec F S384x768 .bf16) := by
  have h := idx_whole t
  funext y
  unfold iblk
  rw [View.read_apply]
  show V m c main_v14 (((cfg0.win 9).blk t).view.emb y) = V m c main_v14 y
  refine congrArg (V m c main_v14 : Vec F S384x768 .bf16) ?_
  funext a; apply Fin.ext
  match a with
  | ⟨0, _⟩ => show win0_9.index t (0 : Fin 2) * 384 + 1 * (y 0).val = (y 0).val; omega
  | ⟨1, _⟩ => show win0_9.index t (1 : Fin 2) * 768 + 1 * (y 1).val = (y 1).val; omega

/-- Window 10's block at every point is the whole staged array. -/
theorem whole_w10 (c : Dev nD) (t : Fin cfg0.N) : (iblk m c 10 t : Vec F S1x768 .f32) = (V m c main_v21 : Vec F S1x768 .f32) := by
  have h := idx_whole t
  funext y
  unfold iblk
  rw [View.read_apply]
  show V m c main_v21 (((cfg0.win 10).blk t).view.emb y) = V m c main_v21 y
  refine congrArg (V m c main_v21 : Vec F S1x768 .f32) ?_
  funext a; apply Fin.ext
  match a with
  | ⟨0, _⟩ => show win0_10.index t (0 : Fin 2) * 1 + 1 * (y 0).val = (y 0).val; omega
  | ⟨1, _⟩ => show win0_10.index t (1 : Fin 2) * 768 + 1 * (y 1).val = (y 1).val; omega

/-- Window 11's block at every point is the whole staged array. -/
theorem whole_w11 (c : Dev nD) (t : Fin cfg0.N) : (iblk m c 11 t : Vec F S256x512 .bf16) = (V m c main_v17 : Vec F S256x512 .bf16) := by
  have h := idx_whole t
  funext y
  unfold iblk
  rw [View.read_apply]
  show V m c main_v17 (((cfg0.win 11).blk t).view.emb y) = V m c main_v17 y
  refine congrArg (V m c main_v17 : Vec F S256x512 .bf16) ?_
  funext a; apply Fin.ext
  match a with
  | ⟨0, _⟩ => show win0_11.index t (0 : Fin 2) * 256 + 1 * (y 0).val = (y 0).val; omega
  | ⟨1, _⟩ => show win0_11.index t (1 : Fin 2) * 512 + 1 * (y 1).val = (y 1).val; omega

/-- Window 12's block at every point is the whole staged array. -/
theorem whole_w12 (c : Dev nD) (t : Fin cfg0.N) : (iblk m c 12 t : Vec F S1x512 .f32) = (V m c main_v23 : Vec F S1x512 .f32) := by
  have h := idx_whole t
  funext y
  unfold iblk
  rw [View.read_apply]
  show V m c main_v23 (((cfg0.win 12).blk t).view.emb y) = V m c main_v23 y
  refine congrArg (V m c main_v23 : Vec F S1x512 .f32) ?_
  funext a; apply Fin.ext
  match a with
  | ⟨0, _⟩ => show win0_12.index t (0 : Fin 2) * 1 + 1 * (y 0).val = (y 0).val; omega
  | ⟨1, _⟩ => show win0_12.index t (1 : Fin 2) * 512 + 1 * (y 1).val = (y 1).val; omega

/-- Window 13's block at every point is the whole staged array. -/
theorem whole_w13 (c : Dev nD) (t : Fin cfg0.N) : (iblk m c 13 t : Vec F S256x256 .bf16) = (V m c main_v20 : Vec F S256x256 .bf16) := by
  have h := idx_whole t
  funext y
  unfold iblk
  rw [View.read_apply]
  show V m c main_v20 (((cfg0.win 13).blk t).view.emb y) = V m c main_v20 y
  refine congrArg (V m c main_v20 : Vec F S256x256 .bf16) ?_
  funext a; apply Fin.ext
  match a with
  | ⟨0, _⟩ => show win0_13.index t (0 : Fin 2) * 256 + 1 * (y 0).val = (y 0).val; omega
  | ⟨1, _⟩ => show win0_13.index t (1 : Fin 2) * 256 + 1 * (y 1).val = (y 1).val; omega

/-- Window 14's block at every point is the whole staged array. -/
theorem whole_w14 (c : Dev nD) (t : Fin cfg0.N) : (iblk m c 14 t : Vec F S1x256 .f32) = (V m c main_v25 : Vec F S1x256 .f32) := by
  have h := idx_whole t
  funext y
  unfold iblk
  rw [View.read_apply]
  show V m c main_v25 (((cfg0.win 14).blk t).view.emb y) = V m c main_v25 y
  refine congrArg (V m c main_v25 : Vec F S1x256 .f32) ?_
  funext a; apply Fin.ext
  match a with
  | ⟨0, _⟩ => show win0_14.index t (0 : Fin 2) * 1 + 1 * (y 0).val = (y 0).val; omega
  | ⟨1, _⟩ => show win0_14.index t (1 : Fin 2) * 256 + 1 * (y 1).val = (y 1).val; omega

/-- Window 15's block at every point is the whole staged array. -/
theorem whole_w15 (c : Dev nD) (t : Fin cfg0.N) : (iblk m c 15 t : Vec F S256x128 .bf16) = (V m c main_v27 : Vec F S256x128 .bf16) := by
  have h := idx_whole t
  funext y
  unfold iblk
  rw [View.read_apply]
  show V m c main_v27 (((cfg0.win 15).blk t).view.emb y) = V m c main_v27 y
  refine congrArg (V m c main_v27 : Vec F S256x128 .bf16) ?_
  funext a; apply Fin.ext
  match a with
  | ⟨0, _⟩ => show win0_15.index t (0 : Fin 2) * 256 + 1 * (y 0).val = (y 0).val; omega
  | ⟨1, _⟩ => show win0_15.index t (1 : Fin 2) * 128 + 1 * (y 1).val = (y 1).val; omega

/-- Window 16's block at every point is the whole staged array. -/
theorem whole_w16 (c : Dev nD) (t : Fin cfg0.N) : (iblk m c 16 t : Vec F S1x128 .f32) = (V m c main_v28 : Vec F S1x128 .f32) := by
  have h := idx_whole t
  funext y
  unfold iblk
  rw [View.read_apply]
  show V m c main_v28 (((cfg0.win 16).blk t).view.emb y) = V m c main_v28 y
  refine congrArg (V m c main_v28 : Vec F S1x128 .f32) ?_
  funext a; apply Fin.ext
  match a with
  | ⟨0, _⟩ => show win0_16.index t (0 : Fin 2) * 1 + 1 * (y 0).val = (y 0).val; omega
  | ⟨1, _⟩ => show win0_16.index t (1 : Fin 2) * 128 + 1 * (y 1).val = (y 1).val; omega

/-- Window 17's block at every point is the whole staged array. -/
theorem whole_w17 (c : Dev nD) (t : Fin cfg0.N) : (iblk m c 17 t : Vec F S512x128 .bf16) = (V m c main_v35 : Vec F S512x128 .bf16) := by
  have h := idx_whole t
  funext y
  unfold iblk
  rw [View.read_apply]
  show V m c main_v35 (((cfg0.win 17).blk t).view.emb y) = V m c main_v35 y
  refine congrArg (V m c main_v35 : Vec F S512x128 .bf16) ?_
  funext a; apply Fin.ext
  match a with
  | ⟨0, _⟩ => show win0_17.index t (0 : Fin 2) * 512 + 1 * (y 0).val = (y 0).val; omega
  | ⟨1, _⟩ => show win0_17.index t (1 : Fin 2) * 128 + 1 * (y 1).val = (y 1).val; omega

end Cert.KernelIdeal.Whole

end
-- ==== Proof.Cover.lean ====
/-
  The output's blocks tile the output array.

  Point t writes back rows 512·t … 512·t + 511, all 1104 columns.  Row r of the array therefore lies in the block
  of point r / 512, and since the array has 32768 = 64 · 512 rows, every index is in the block of one of the 64 points.
-/
import proofs.«131115_j6021544149148_2_alg».proof.Proof.BlockReads

noncomputable section

namespace Cert.KernelIdeal.Whole

open Cert.KernelIdeal Cert.KernelIdeal.Gen Idealize.ShloMosaic Idealize.ShloMosaic.TcCoe Idealize.SL.Sem

/-- An index of the output array is in point t's block iff, on each axis, its coordinate is in the block's range. -/
theorem mem_out_blk (t : Fin cfg0.N) (i : S32768x1104.Idx) :
    i ∈ ((cfg0.win 18).blk t).view.set ↔ ∀ a : Fin 2, win0_18.index t a * S512x1104.size a ≤ (i a).val ∧ (i a).val < win0_18.index t a * S512x1104.size a + S512x1104.size a := by
  show i ∈ ((View.whole main_v36).slice (win0_18.rect t)).set ↔ _
  rw [View.set_slice_whole, Rect.mem_set_unit]
  exact Iff.rfl

/-- Every index of the output array is in the block some point writes back: row r in that of point r / 512. -/
theorem out_cover (i : S32768x1104.Idx) :
    ∃ t : Fin cfg0.N, (cfg0.win 18).flush t = true ∧ i ∈ ((cfg0.win 18).blk t).view.set := by
  have hN : cfg0.N = 64 := N_0
  have hi0 : (i 0).val < 32768 := (i 0).isLt
  have hi1 : (i 1).val < 1104 := (i 1).isLt
  obtain ⟨t, ht⟩ : ∃ t : Fin cfg0.N, t.val = (i 0).val / 512 := ⟨⟨(i 0).val / 512, by omega⟩, rfl⟩
  obtain ⟨_, _, _, _, _, _, e6, e7⟩ := idx_rows t
  refine ⟨t, flush0_18 t, ?_⟩
  rw [mem_out_blk]
  intro a
  match a with
  | ⟨0, _⟩ => show win0_18.index t (0 : Fin 2) * 512 ≤ (i 0).val ∧ (i 0).val < win0_18.index t (0 : Fin 2) * 512 + 512; omega
  | ⟨1, _⟩ => show win0_18.index t (1 : Fin 2) * 1104 ≤ (i 1).val ∧ (i 1).val < win0_18.index t (1 : Fin 2) * 1104 + 1104; omega

end Cert.KernelIdeal.Whole

end
-- ==== Proof.Blocks.lean ====
/-
  From the block each point stores to the whole output array.

  At point t the kernel body stores one block of 512 rows.  Rows 512·t … 512·t + 511 of the three row-blocked arguments
  go in, together with the weight and bias arrays, which are the same at every point and hold what the reference
  computes from the parameters; row p of the stored block is then row 512·t + p of the reference's result.  The block is
  written back to rows 512·t … 512·t + 511 of the output array, the 64 blocks tile the array, and so the array ends
  holding the reference's result.
-/
import proofs.«131115_j6021544149148_2_alg».proof.Proof.Payload
import proofs.«131115_j6021544149148_2_alg».proof.Proof.HostSide
import proofs.«131115_j6021544149148_2_alg».proof.Proof.Cover

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.LibRowRel
open Cert.ReferenceIdeal.Read

theorem zero_offsets : (![0, 0] : Fin 2 → Nat) = fun _ => 0 := funext fun a => by fin_cases a <;> rfl

/-- The block the body stores, over any input blocks whose rows are rows ρ p of the arguments and whose weight and bias
    blocks hold the reference's: row p of it is row ρ p of the reference's result. -/
theorem stored_eq (ρ : Fin 512 → Fin 32768)
    (A0 : FVec Ideal ⟨2, ![32768, 272]⟩ .f32) (A1 : FVec Ideal ⟨2, ![32768, 1104]⟩ .f32) (A2 : FVec Ideal ⟨2, ![32768, 64]⟩ .f32) (A3 : FVec Ideal ⟨2, ![1536, 80]⟩ .f32) (A4 : FVec Ideal ⟨1, ![1536]⟩ .f32) (A5 : FVec Ideal ⟨2, ![1536, 512]⟩ .f32) (A6 : FVec Ideal ⟨1, ![1536]⟩ .f32) (A7 : FVec Ideal ⟨2, ![768, 384]⟩ .f32) (A8 : FVec Ideal ⟨1, ![768]⟩ .f32) (A9 : FVec Ideal ⟨2, ![768, 256]⟩ .f32) (A10 : FVec Ideal ⟨1, ![768]⟩ .f32) (A11 : FVec Ideal ⟨2, ![128, 256]⟩ .f32) (A12 : FVec Ideal ⟨1, ![128]⟩ .f32) (A13 : FVec Ideal ⟨2, ![128, 512]⟩ .f32)
    (x0 : FVec Ideal ⟨2, ![512, 272]⟩ .f32) (x1 : FVec Ideal ⟨2, ![512, 1104]⟩ .f32) (x2 : FVec Ideal ⟨2, ![512, 64]⟩ .f32) (x3 : FVec Ideal ⟨2, ![80, 1536]⟩ .bf16) (x4 : FVec Ideal ⟨2, ![1, 1536]⟩ .f32) (x5 : FVec Ideal ⟨2, ![512, 1024]⟩ .bf16) (x6 : FVec Ideal ⟨2, ![1, 1024]⟩ .f32) (x7 : FVec Ideal ⟨2, ![512, 512]⟩ .bf16) (x8 : FVec Ideal ⟨2, ![1, 512]⟩ .f32) (x9 : FVec Ideal ⟨2, ![384, 768]⟩ .bf16) (x10 : FVec Ideal ⟨2, ![1, 768]⟩ .f32) (x11 : FVec Ideal ⟨2, ![256, 512]⟩ .bf16) (x12 : FVec Ideal ⟨2, ![1, 512]⟩ .f32) (x13 : FVec Ideal ⟨2, ![256, 256]⟩ .bf16) (x14 : FVec Ideal ⟨2, ![1, 256]⟩ .f32) (x15 : FVec Ideal ⟨2, ![256, 128]⟩ .bf16) (x16 : FVec Ideal ⟨2, ![1, 128]⟩ .f32) (x17 : FVec Ideal ⟨2, ![512, 128]⟩ .bf16)
    (h0 : Cert.LibRowRel.Rel ρ x0 A0) (h1 : Cert.LibRowRel.Rel ρ x1 A1) (h2 : Cert.LibRowRel.Rel ρ x2 A2) (h3 : ∀ i, (x3 i : EReal) = (val_main_v69 (F := Ideal) A3) i) (h4 : ∀ i, (x4 i : EReal) = (val_main_v71 (F := Ideal) A4) i) (h5 : ∀ i, (x5 i : EReal) = (val_main_v81 (F := Ideal) A5) i) (h6 : ∀ i, (x6 i : EReal) = (val_main_v83 (F := Ideal) A6) i) (h7 : ∀ i, (x7 i : EReal) = (val_main_v103 (F := Ideal) A5) i) (h8 : ∀ i, (x8 i : EReal) = (val_main_v106 (F := Ideal) A6) i) (h9 : ∀ i, (x9 i : EReal) = (val_main_v9 (F := Ideal) A7) i) (h10 : ∀ i, (x10 i : EReal) = (val_main_v11 (F := Ideal) A8) i) (h11 : ∀ i, (x11 i : EReal) = (val_main_v21 (F := Ideal) A9) i) (h12 : ∀ i, (x12 i : EReal) = (val_main_v23 (F := Ideal) A10) i) (h13 : ∀ i, (x13 i : EReal) = (val_main_v43 (F := Ideal) A9) i) (h14 : ∀ i, (x14 i : EReal) = (val_main_v46 (F := Ideal) A10) i) (h15 : ∀ i, (x15 i : EReal) = (val_main_v56 (F := Ideal) A11) i) (h16 : ∀ i, (x16 i : EReal) = (val_main_v58 (F := Ideal) A12) i) (h17 : ∀ i, (x17 i : EReal) = (val_main_v121 (F := Ideal) A13) i) :
    out0_18 (F := Ideal) x0 x1 x2 x3 x4 x5 x6 x7 x8 x9 x10 x11 x12 x13 x14 x15 x16 x17
      = fun j : S512x1104.Idx => val_main_v123 (F := Ideal) A0 A1 A2 A3 A4 A5 A6 A7 A8 A9 A10 A11 A12 A13 (ix2 (ρ (j 0)) (j 1)) := by
  unfold out0_18
  rw [View.canon_unit_zero zero_offsets]
  simp only [View.ld_unit_zero (S := S512x272) zero_offsets, View.ld_unit_zero (S := S512x1104) zero_offsets, View.ld_unit_zero (S := S512x64) zero_offsets, View.ld_unit_zero (S := S384x768) zero_offsets, View.ld_unit_zero (S := S1x768) zero_offsets, View.ld_unit_zero (S := S256x512) zero_offsets, View.ld_unit_zero (S := S1x512) zero_offsets, View.ld_unit_zero (S := S256x256) zero_offsets, View.ld_unit_zero (S := S1x256) zero_offsets, View.ld_unit_zero (S := S256x128) zero_offsets, View.ld_unit_zero (S := S1x128) zero_offsets, View.ld_unit_zero (S := S80x1536) zero_offsets, View.ld_unit_zero (S := S1x1536) zero_offsets, View.ld_unit_zero (S := S512x1024) zero_offsets, View.ld_unit_zero (S := S1x1024) zero_offsets, View.ld_unit_zero (S := S512x512) zero_offsets, View.ld_unit_zero (S := S512x128) zero_offsets]
  funext j
  obtain ⟨p, q, rfl⟩ : ∃ (p : Fin 512) (q : Fin 1104), j = ix2 p q := ⟨j 0, j 1, eq_ix2 j⟩
  exact Cert.Bridge.payload_rel ρ A0 A1 A2 A3 A4 A5 A6 A7 A8 A9 A10 A11 A12 A13 x0 x1 x2 x3 x4 x5 x6 x7 x8 x9 x10 x11 x12 x13 x14 x15 x16 x17 h0 h1 h2 h3 h4 h5 h6 h7 h8 h9 h10 h11 h12 h13 h14 h15 h16 h17 p q

variable (m : (ℓ : Loc nD τ sig) → Buf (Elt Ideal) ℓ) (ρ : Dev nD → PrngReg)

/-- The reference's result at the arguments as launched. -/
abbrev refOut (c : Dev nD) : FVec Ideal ⟨2, ![32768, 1104]⟩ .f32 :=
  val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- What point t writes back is block t of the reference's result. -/
theorem flushed_eq (c : Dev nD) (t : Fin cfg0.N) :
    (dats m 0 c).flushed 18 t = ((cfg0.win 18).blk t).view.read (Elt Ideal) (refOut m c) := by
  have h0 : Cert.LibRowRel.Rel (φ := .f32) (rowOf t) (iblk m c 0 t : FVec Ideal ⟨2, ![512, 272]⟩ .f32) (m ((c : Thread nD τ).loc main_arg0) : FVec Ideal ⟨2, ![32768, 272]⟩ .f32) := fun p q => rows_w0 m c t p q
  have h1 : Cert.LibRowRel.Rel (φ := .f32) (rowOf t) (iblk m c 1 t : FVec Ideal ⟨2, ![512, 1104]⟩ .f32) (m ((c : Thread nD τ).loc main_arg1) : FVec Ideal ⟨2, ![32768, 1104]⟩ .f32) := fun p q => rows_w1 m c t p q
  have h2 : Cert.LibRowRel.Rel (φ := .f32) (rowOf t) (iblk m c 2 t : FVec Ideal ⟨2, ![512, 64]⟩ .f32) (m ((c : Thread nD τ).loc main_arg2) : FVec Ideal ⟨2, ![32768, 64]⟩ .f32) := fun p q => rows_w2 m c t p q
  have h3 : ∀ i, ((iblk m c 3 t : FVec Ideal ⟨2, ![80, 1536]⟩ .bf16) i : EReal) = val_main_v69 (F := Ideal) (m ((c : Thread nD τ).loc main_arg3)) i := by
    rw [whole_w3 m c t]; exact held_w3 m c
  have h4 : ∀ i, ((iblk m c 4 t : FVec Ideal ⟨2, ![1, 1536]⟩ .f32) i : EReal) = val_main_v71 (F := Ideal) (m ((c : Thread nD τ).loc main_arg4)) i := by
    rw [whole_w4 m c t]; exact held_w4 m c
  have h5 : ∀ i, ((iblk m c 5 t : FVec Ideal ⟨2, ![512, 1024]⟩ .bf16) i : EReal) = val_main_v81 (F := Ideal) (m ((c : Thread nD τ).loc main_arg5)) i := by
    rw [whole_w5 m c t]; exact held_w5 m c
  have h6 : ∀ i, ((iblk m c 6 t : FVec Ideal ⟨2, ![1, 1024]⟩ .f32) i : EReal) = val_main_v83 (F := Ideal) (m ((c : Thread nD τ).loc main_arg6)) i := by
    rw [whole_w6 m c t]; exact held_w6 m c
  have h7 : ∀ i, ((iblk m c 7 t : FVec Ideal ⟨2, ![512, 512]⟩ .bf16) i : EReal) = val_main_v103 (F := Ideal) (m ((c : Thread nD τ).loc main_arg5)) i := by
    rw [whole_w7 m c t]; exact held_w7 m c
  have h8 : ∀ i, ((iblk m c 8 t : FVec Ideal ⟨2, ![1, 512]⟩ .f32) i : EReal) = val_main_v106 (F := Ideal) (m ((c : Thread nD τ).loc main_arg6)) i := by
    rw [whole_w8 m c t]; exact held_w8 m c
  have h9 : ∀ i, ((iblk m c 9 t : FVec Ideal ⟨2, ![384, 768]⟩ .bf16) i : EReal) = val_main_v9 (F := Ideal) (m ((c : Thread nD τ).loc main_arg7)) i := by
    rw [whole_w9 m c t]; exact held_w9 m c
  have h10 : ∀ i, ((iblk m c 10 t : FVec Ideal ⟨2, ![1, 768]⟩ .f32) i : EReal) = val_main_v11 (F := Ideal) (m ((c : Thread nD τ).loc main_arg8)) i := by
    rw [whole_w10 m c t]; exact held_w10 m c
  have h11 : ∀ i, ((iblk m c 11 t : FVec Ideal ⟨2, ![256, 512]⟩ .bf16) i : EReal) = val_main_v21 (F := Ideal) (m ((c : Thread nD τ).loc main_arg9)) i := by
    rw [whole_w11 m c t]; exact held_w11 m c
  have h12 : ∀ i, ((iblk m c 12 t : FVec Ideal ⟨2, ![1, 512]⟩ .f32) i : EReal) = val_main_v23 (F := Ideal) (m ((c : Thread nD τ).loc main_arg10)) i := by
    rw [whole_w12 m c t]; exact held_w12 m c
  have h13 : ∀ i, ((iblk m c 13 t : FVec Ideal ⟨2, ![256, 256]⟩ .bf16) i : EReal) = val_main_v43 (F := Ideal) (m ((c : Thread nD τ).loc main_arg9)) i := by
    rw [whole_w13 m c t]; exact held_w13 m c
  have h14 : ∀ i, ((iblk m c 14 t : FVec Ideal ⟨2, ![1, 256]⟩ .f32) i : EReal) = val_main_v46 (F := Ideal) (m ((c : Thread nD τ).loc main_arg10)) i := by
    rw [whole_w14 m c t]; exact held_w14 m c
  have h15 : ∀ i, ((iblk m c 15 t : FVec Ideal ⟨2, ![256, 128]⟩ .bf16) i : EReal) = val_main_v56 (F := Ideal) (m ((c : Thread nD τ).loc main_arg11)) i := by
    rw [whole_w15 m c t]; exact held_w15 m c
  have h16 : ∀ i, ((iblk m c 16 t : FVec Ideal ⟨2, ![1, 128]⟩ .f32) i : EReal) = val_main_v58 (F := Ideal) (m ((c : Thread nD τ).loc main_arg12)) i := by
    rw [whole_w16 m c t]; exact held_w16 m c
  have h17 : ∀ i, ((iblk m c 17 t : FVec Ideal ⟨2, ![512, 128]⟩ .bf16) i : EReal) = val_main_v121 (F := Ideal) (m ((c : Thread nD τ).loc main_arg13)) i := by
    rw [whole_w17 m c t]; exact held_w17 m c
  rw [Value.flushed18, stored_eq (rowOf t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) h0 h1 h2 h3 h4 h5 h6 h7 h8 h9 h10 h11 h12 h13 h14 h15 h16 h17]
  obtain ⟨_, _, _, _, _, _, e6, e7⟩ := idx_rows t
  funext j
  show refOut m c (ix2 (rowOf t (j 0)) (j 1)) = refOut m c (((cfg0.win 18).blk t).view.emb j)
  refine congrArg (refOut m c) ?_
  funext a; apply Fin.ext
  match a with
  | ⟨0, _⟩ => show 512 * t.val + (j 0).val = win0_18.index t (0 : Fin 2) * 512 + 1 * (j 0).val; omega
  | ⟨1, _⟩ => show (j 1).val = win0_18.index t (1 : Fin 2) * 1104 + 1 * (j 1).val; omega

/-- The output array after the run is the reference's result. -/
theorem final (c : Dev nD) : (dats m 0 c).arrAt 18 cfg0.N = refOut m c :=
  (dats m 0 c).arrAt_eq_of_cover 18 (refOut m c) (fun t _ => flushed_eq m c t) out_cover

/-- The kernel's run: the output array ends at the reference's result of the arguments, the arguments unchanged. -/
theorem run : θ_run Cert.KernelIdeal.defs (onTc (τ := τ) (Cert.KernelIdeal.main (F := Ideal))) ⟨m, fun _ => 0, ρ⟩ fun r => ∀ c : Dev nD,
      r.2.mem ((c : Thread nD τ).loc main_v36) = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.KernelIdeal.Whole

end
-- ==== Proof.lean ====
/-
  The fused decoder step against its reference, at the ideal values.

  One grid point of the kernel takes 512 rows of the three row-blocked inputs and the whole weight and bias arrays that the
  host prepared (transposed slices of the weight matrices, bias rows, the readout matrix with rows scaled to unit norm and
  transposed) and stores 512 rows of the result: the controller cell's new state, the posterior's mean and standard
  deviation, the generator's input, the generator cell's new state and the readout, side by side.  The reference computes
  the same quantities for all 32768 rows at once.  Every operation acts on each row separately, so row p of the block
  stored at point t is row 512·t + p of the reference's result (Proof/Payload.lean, over the stage modules); the 64 blocks
  tile the output array, so the kernel's output array is the reference's result as one function of the fourteen argument
  arrays (the frame side).  At the ideal values a change of float format is the identity, a matrix product into a zero
  accumulator and the host's product are the same sum, the vector unit's logistic function is the host's quotient
  1 / (1 + exp(−x)) by definition, and the one regrouping of a sum is associativity of addition on the extended reals;
  no law used needs the inputs finite, so the precondition is not opened.  The ideal pass rewrote nothing: preserves is trivial.
-/
import proofs.«131115_j6021544149148_2_alg».proof.Defs
import proofs.«131115_j6021544149148_2_alg».proof.Proof.Gen.Kernel
import proofs.«131115_j6021544149148_2_alg».proof.Proof.Gen.Kernel.Skeleton
import proofs.«131115_j6021544149148_2_alg».proof.Proof.Gen.Kernel.Launch
import proofs.«131115_j6021544149148_2_alg».proof.Proof.Gen.Kernel.Points
import proofs.«131115_j6021544149148_2_alg».proof.Proof.Gen.Kernel.Frame
import proofs.«131115_j6021544149148_2_alg».proof.Proof.Gen.KernelIdeal
import proofs.«131115_j6021544149148_2_alg».proof.Proof.Gen.KernelIdeal.Skeleton
import proofs.«131115_j6021544149148_2_alg».proof.Proof.Gen.KernelIdeal.Launch
import proofs.«131115_j6021544149148_2_alg».proof.Proof.Gen.KernelIdeal.Points
import proofs.«131115_j6021544149148_2_alg».proof.Proof.Gen.KernelIdeal.Frame
import proofs.«131115_j6021544149148_2_alg».proof.Proof.Gen.ReferenceIdeal
import proofs.«131115_j6021544149148_2_alg».proof.Proof.Gen.Pre_finite_inputs
import proofs.«131115_j6021544149148_2_alg».proof.Proof.Gen.KernelIdeal.Value
import proofs.«131115_j6021544149148_2_alg».proof.Proof.Gen.ReferenceIdeal.Run
import proofs.«131115_j6021544149148_2_alg».proof.Proof.Gen.ReferenceIdeal.Read
import proofs.«131115_j6021544149148_2_alg».proof.Proof.Blocks
import Idealize.ShloMosaic.Adequacy
import Idealize.ShloMosaic.Init

noncomputable section

namespace Cert.Proof

open Idealize.ShloMosaic Idealize.SL.Sem

/-- The word-level kernel runs and leaves its arguments: the generated frame. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the reference's last stage of the (agreeing) argument arrays. -/
theorem algebraic : Cert.algebraic_KernelIdeal_ReferenceIdeal := by
  intro m ρ m' ρ' _ hagree
  refine ⟨fun c => Cert.ReferenceIdeal.Read.val_main_v123 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), Cert.KernelIdeal.Whole.run m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6, a7, a8, a9, a10, a11, a12, a13⟩ := hagree c
  rw [(h c).1, Cert.ReferenceIdeal.Read.val_main_v123_eq, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
